-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v144)) (v1 : (c : Dev Cert.KernelIdeal.nD) → Buf (Elt Ideal) ((c.tc : Thread Cert.KernelIdeal.nD Cert.KernelIdeal.τ).loc Cert.KernelIdeal.main_v128)) (v2 : (c : Dev Cert.KernelIdeal.nD) → Buf (Elt Ideal) ((c.tc : Thread Cert.KernelIdeal.nD Cert.KernelIdeal.τ).loc Cert.KernelIdeal.main_arg16)) (v3 : (c : Dev Cert.KernelIdeal.nD) → Buf (Elt Ideal) ((c.tc : Thread Cert.KernelIdeal.nD Cert.KernelIdeal.τ).loc Cert.KernelIdeal.main_arg17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_v128) = v1 c
          ∧ r.2.mem ((c.tc : Thread Cert.KernelIdeal.nD Cert.KernelIdeal.τ).loc Cert.KernelIdeal.main_arg16) = v2 c
          ∧ r.2.mem ((c.tc : Thread Cert.KernelIdeal.nD Cert.KernelIdeal.τ).loc Cert.KernelIdeal.main_arg17) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_arg16) = v2 c
          ∧ r.2.mem ((c.tc : Thread Cert.ReferenceIdeal.nD Cert.ReferenceIdeal.τ).loc Cert.ReferenceIdeal.main_arg17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x300 : Shape := ⟨2, ![64, 300]⟩
abbrev S300 : Shape := ⟨1, ![300]⟩
abbrev S300x100 : Shape := ⟨2, ![300, 100]⟩
abbrev S100 : Shape := ⟨1, ![100]⟩
abbrev S100x1 : Shape := ⟨2, ![100, 1]⟩
abbrev S1 : Shape := ⟨1, ![1]⟩
abbrev S64x100 : Shape := ⟨2, ![64, 100]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x300 : S_.BroadcastsInDim S64x300 (![] : Fin 0 → Fin S64x300.rank)
  reducesTo_S64x300_S_d0_1 : S64x300.ReducesTo [0, 1] S_
  bcast_S_S300 : S_.BroadcastsInDim S300 (![] : Fin 0 → Fin S300.rank)
  reducesTo_S300_S_d0 : S300.ReducesTo [0] S_
  bcast_S_S300x100 : S_.BroadcastsInDim S300x100 (![] : Fin 0 → Fin S300x100.rank)
  reducesTo_S300x100_S_d0_1 : S300x100.ReducesTo [0, 1] S_
  bcast_S_S100 : S_.BroadcastsInDim S100 (![] : Fin 0 → Fin S100.rank)
  reducesTo_S100_S_d0 : S100.ReducesTo [0] S_
  bcast_S_S100x1 : S_.BroadcastsInDim S100x1 (![] : Fin 0 → Fin S100x1.rank)
  reducesTo_S100x1_S_d0_1 : S100x1.ReducesTo [0, 1] S_
  bcast_S_S1 : S_.BroadcastsInDim S1 (![] : Fin 0 → Fin S1.rank)
  reducesTo_S1_S_d0 : S1.ReducesTo [0] S_
  bcast_S_S64x100 : S_.BroadcastsInDim S64x100 (![] : Fin 0 → Fin S64x100.rank)
  reducesTo_S64x100_S_d0_1 : S64x100.ReducesTo [0, 1] S_

variable [Facts]

def fn_part4 {F : FTy → Type} [FloatOps F] (main_arg16 : FVec F S1 .f32) (main_arg17 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S100 .f32) (main_arg14 : FVec F S64x100 .f32) (main_arg15 : FVec F S100 .f32) (main_arg16 : FVec F S1 .f32) (main_arg17 : FVec F S1 .f32) (main_v48 : IVec S_ 1) (main_v49 : FVec F S64x100 .f32) (main_v50 : FVec F S64x100 .f32) : IVec S_ 1 :=
  let main_v51 : IVec S64x100 1 := cmpf .olt main_v49 main_v50
  let main_c_19 : IVec S_ 1 := constantI S_ 1 1#1
  let main_v52 : IVec S_ 1 := (fun x v => Host.reduce IntOp.andi x v reducesTo_S64x100_S_d0_1 h_S_) main_v51 main_c_19
  let main_v53 : IVec S_ 1 := andi main_v48 main_v52
  let main_v54 : FVec F S100 .f32 := Host.absf main_arg13
  let main_cst_20 : FVec F S_ .f32 := constant S_ .f32 0x7F800000#32
  let main_v55 : FVec F S100 .f32 := broadcastInDim S100 ![] bcast_S_S100 main_cst_20
  let main_v56 : IVec S100 1 := cmpf .olt main_v54 main_v55
  let main_c_21 : IVec S_ 1 := constantI S_ 1 1#1
  let main_v57 : IVec S_ 1 := (fun x v => Host.reduce IntOp.andi x v reducesTo_S100_S_d0 h_S_) main_v56 main_c_21
  let main_v58 : IVec S_ 1 := andi main_v53 main_v57
  let main_v59 : FVec F S64x100 .f32 := Host.absf main_arg14
  let main_cst_22 : FVec F S_ .f32 := constant S_ .f32 0x7F800000#32
  let main_v60 : FVec F S64x100 .f32 := broadcastInDim S64x100 ![] bcast_S_S64x100 main_cst_22
  let main_v61 : IVec S64x100 1 := cmpf .olt main_v59 main_v60
  let main_c_23 : IVec S_ 1 := constantI S_ 1 1#1
  let main_v62 : IVec S_ 1 := (fun x v => Host.reduce IntOp.andi x v reducesTo_S64x100_S_d0_1 h_S_) main_v61 main_c_23
  let main_v63 : IVec S_ 1 := andi main_v58 main_v62
  let main_v64 : FVec F S100 .f32 := Host.absf main_arg15
  let main_cst_24 : FVec F S_ .f32 := constant S_ .f32 0x7F800000#32
  let main_v65 : FVec F S100 .f32 := broadcastInDim S100 ![] bcast_S_S100 main_cst_24
  let main_v66 : IVec S100 1 := cmpf .olt main_v64 main_v65
  let main_c_25 : IVec S_ 1 := constantI S_ 1 1#1
  let main_v67 : IVec S_ 1 := (fun x v => Host.reduce IntOp.andi x v reducesTo_S100_S_d0 h_S_) main_v66 main_c_25
  fn_part4 (F := F) main_arg16 main_arg17 main_v63 main_v67

def fn_part2 {F : FTy → Type} [FloatOps F] (main_arg9 : FVec F S100x1 .f32) (main_arg10 : FVec F S100x1 .f32) (main_arg11 : FVec F S1 .f32) (main_arg12 : FVec F S64x100 .f32) (main_arg13 : FVec F S100 .f32) (main_arg14 : FVec F S64x100 .f32) (main_arg15 : FVec F S100 .f32) (main_arg16 : FVec F S1 .f32) (main_arg17 : FVec F S1 .f32) (main_v33 : IVec S_ 1) : IVec S_ 1 :=
  let main_v34 : FVec F S100x1 .f32 := Host.absf main_arg9
  let main_cst_12 : FVec F S_ .f32 := constant S_ .f32 0x7F800000#32
  let main_v35 : FVec F S100x1 .f32 := broadcastInDim S100x1 ![] bcast_S_S100x1 main_cst_12
  let main_v36 : IVec S100x1 1 := cmpf .olt main_v34 main_v35
  let main_c_13 : IVec S_ 1 := constantI S_ 1 1#1
  let main_v37 : IVec S_ 1 := (fun x v => Host.reduce IntOp.andi x v reducesTo_S100x1_S_d0_1 h_S_) main_v36 main_c_13
  let main_v38 : IVec S_ 1 := andi main_v33 main_v37
  let main_v39 : FVec F S100x1 .f32 := Host.absf main_arg10
  let main_cst_14 : FVec F S_ .f32 := constant S_ .f32 0x7F800000#32
  let main_v40 : FVec F S100x1 .f32 := broadcastInDim S100x1 ![] bcast_S_S100x1 main_cst_14
  let main_v41 : IVec S100x1 1 := cmpf .olt main_v39 main_v40
  let main_c_15 : IVec S_ 1 := constantI S_ 1 1#1
  let main_v42 : IVec S_ 1 := (fun x v => Host.reduce IntOp.andi x v reducesTo_S100x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S64x100 .f32 := Host.absf main_arg12
  let main_cst_18 : FVec F S_ .f32 := constant S_ .f32 0x7F800000#32
  let main_v50 : FVec F S64x100 .f32 := broadcastInDim S64x100 ![] bcast_S_S64x100 main_cst_18
  fn_part3 (F := F) main_arg13 main_arg14 main_arg15 main_arg16 main_arg17 main_v48 main_v49 main_v50

def fn_part1 {F : FTy → Type} [FloatOps F] (main_arg6 : FVec F S300x100 .f32) (main_arg7 : FVec F S300x100 .f32) (main_arg8 : FVec F S100 .f32) (main_arg9 : FVec F S100x1 .f32) (main_arg10 : FVec F S100x1 .f32) (main_arg11 : FVec F S1 .f32) (main_arg12 : FVec F S64x100 .f32) (main_arg13 : FVec F S100 .f32) (main_arg14 : FVec F S64x100 .f32) (main_arg15 : FVec F S100 .f32) (main_arg16 : FVec F S1 .f32) (main_arg17 : FVec F S1 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300x100 .f32 := Host.absf main_arg6
  let main_cst_6 : FVec F S_ .f32 := constant S_ .f32 0x7F800000#32
  let main_v20 : FVec F S300x100 .f32 := broadcastInDim S300x100 ![] bcast_S_S300x100 main_cst_6
  let main_v21 : IVec S300x100 1 := cmpf .olt main_v19 main_v20
  let main_c_7 : IVec S_ 1 := constantI S_ 1 1#1
  let main_v22 : IVec S_ 1 := (fun x v => Host.reduce IntOp.andi x v reducesTo_S300x100_S_d0_1 h_S_) main_v21 main_c_7
  let main_v23 : IVec S_ 1 := andi main_v18 main_v22
  let main_v24 : FVec F S300x100 .f32 := Host.absf main_arg7
  let main_cst_8 : FVec F S_ .f32 := constant S_ .f32 0x7F800000#32
  let main_v25 : FVec F S300x100 .f32 := broadcastInDim S300x100 ![] bcast_S_S300x100 main_cst_8
  let main_v26 : IVec S300x100 1 := cmpf .olt main_v24 main_v25
  let main_c_9 : IVec S_ 1 := constantI S_ 1 1#1
  let main_v27 : IVec S_ 1 := (fun x v => Host.reduce IntOp.andi x v reducesTo_S300x100_S_d0_1 h_S_) main_v26 main_c_9
  let main_v28 : IVec S_ 1 := andi main_v23 main_v27
  let main_v29 : FVec F S100 .f32 := Host.absf main_arg8
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x64 .f32) (main_arg1 : IVec S2x800000 32) (main_arg2 : IVec S2x800000 32) (main_arg3 : FVec F S64x300 .f32) (main_arg4 : FVec F S64x300 .f32) (main_arg5 : FVec F S300 .f32) (main_arg6 : FVec F S300x100 .f32) (main_arg7 : FVec F S300x100 .f32) (main_arg8 : FVec F S100 .f32) (main_arg9 : FVec F S100x1 .f32) (main_arg10 : FVec F S100x1 .f32) (main_arg11 : FVec F S1 .f32) (main_arg12 : FVec F S64x100 .f32) (main_arg13 : FVec F S100 .f32) (main_arg14 : FVec F S64x100 .f32) (main_arg15 : FVec F S100 .f32) (main_arg16 : FVec F S1 .f32) (main_arg17 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x300 .f32 := Host.absf main_arg3
  let main_cst_0 : FVec F S_ .f32 := constant S_ .f32 0x7F800000#32
  let main_v5 : FVec F S64x300 .f32 := broadcastInDim S64x300 ![] bcast_S_S64x300 main_cst_0
  let main_v6 : IVec S64x300 1 := cmpf .olt main_v4 main_v5
  let main_c_1 : IVec S_ 1 := constantI S_ 1 1#1
  let main_v7 : IVec S_ 1 := (fun x v => Host.reduce IntOp.andi x v reducesTo_S64x300_S_d0_1 h_S_) main_v6 main_c_1
  let main_v8 : IVec S_ 1 := andi main_v3 main_v7
  let main_v9 : FVec F S64x300 .f32 := Host.absf main_arg4
  let main_cst_2 : FVec F S_ .f32 := constant S_ .f32 0x7F800000#32
  let main_v10 : FVec F S64x300 .f32 := broadcastInDim S64x300 ![] bcast_S_S64x300 main_cst_2
  let main_v11 : IVec S64x300 1 := cmpf .olt main_v9 main_v10
  let main_c_3 : IVec S_ 1 := constantI S_ 1 1#1
  let main_v12 : IVec S_ 1 := (fun x v => Host.reduce IntOp.andi x v reducesTo_S64x300_S_d0_1 h_S_) main_v11 main_c_3
  let main_v13 : IVec S_ 1 := andi main_v8 main_v12
  let main_v14 : FVec F S300 .f32 := Host.absf main_arg5
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x64 : Shape := ⟨2, ![50000, 64]⟩
abbrev S2x800000 : Shape := ⟨2, ![2, 800000]⟩
abbrev S64x300 : Shape := ⟨2, ![64, 300]⟩
abbrev S300 : Shape := ⟨1, ![300]⟩
abbrev S300x100 : Shape := ⟨2, ![300, 100]⟩
abbrev S100 : Shape := ⟨1, ![100]⟩
abbrev S100x1 : Shape := ⟨2, ![100, 1]⟩
abbrev S1 : Shape := ⟨1, ![1]⟩
abbrev S64x100 : Shape := ⟨2, ![64, 100]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x300 : Shape := ⟨2, ![50000, 300]⟩
abbrev S2000x64 : Shape := ⟨2, ![2000, 64]⟩
abbrev S2000x300 : Shape := ⟨2, ![2000, 300]⟩
abbrev S1x300 : Shape := ⟨2, ![1, 300]⟩
abbrev S800000x300 : Shape := ⟨2, ![800000, 300]⟩
abbrev S50000x100 : Shape := ⟨2, ![50000, 100]⟩
abbrev S2000x100 : Shape := ⟨2, ![2000, 100]⟩
abbrev S1x100 : Shape := ⟨2, ![1, 100]⟩
abbrev S800000x100 : Shape := ⟨2, ![800000, 100]⟩
abbrev S50000x1 : Shape := ⟨2, ![50000, 1]⟩
abbrev S2000x1 : Shape := ⟨2, ![2000, 1]⟩
abbrev S1x1 : Shape := ⟨2, ![1, 1]⟩

abbrev nBuf : Space → Nat
  | .hbm => 205
  | .vmem => 35
  | .smem => 0
  | _ => 0

abbrev hbmTy0_0 (i : Nat) : BufTy := match i % 128 with
  | 0 => ⟨S50000x64, .f32⟩
  | 1 => ⟨S2x800000, .i32⟩
  | 2 => ⟨S2x800000, .i32⟩
  | 3 => ⟨S64x300, .f32⟩
  | 4 => ⟨S64x300, .f32⟩
  | 5 => ⟨S300, .f32⟩
  | 6 => ⟨S300x100, .f32⟩
  | 7 => ⟨S300x100, .f32⟩
  | 8 => ⟨S100, .f32⟩
  | 9 => ⟨S100x1, .f32⟩
  | 10 => ⟨S100x1, .f32⟩
  | 11 => ⟨S1, .f32⟩
  | 12 => ⟨S64x100, .f32⟩
  | 13 => ⟨S100, .f32⟩
  | 14 => ⟨S64x100, .f32⟩
  | 15 => ⟨S100, .f32⟩
  | 16 => ⟨S1, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S1x800000, .i32⟩
  | 23 => ⟨S800000, .i32⟩
  | 24 => ⟨S1x800000, .i32⟩
  | 25 => ⟨S800000, .i32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .f32⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000, .f32⟩
  | 62 => ⟨S800000, .f32⟩
  | 63 => ⟨S50000x64, .bf16⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x64, .bf16⟩
  | 73 => ⟨S800000x64, .f32⟩
  | 74 => ⟨S800000x1, .f32⟩
  | 75 => ⟨S800000x64, .f32⟩
  | 76 => ⟨S800000x64, .f32⟩
  | 77 => ⟨S_, .f32⟩
  | 78 => ⟨S50000x64, .f32⟩
  | 79 => ⟨S800000x1, .i32⟩
  | 80 => ⟨S50000x64, .f32⟩
  | 81 => ⟨S50000x300, .bf16⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x300, .bf16⟩
  | 91 => ⟨S800000x300, .f32⟩
  | 92 => ⟨S800000x1, .f32⟩
  | 93 => ⟨S800000x300, .f32⟩
  | 94 => ⟨S800000x300, .f32⟩
  | 95 => ⟨S_, .f32⟩
  | 96 => ⟨S50000x300, .f32⟩
  | 97 => ⟨S800000x1, .i32⟩
  | 98 => ⟨S50000x300, .f32⟩
  | 99 => ⟨S50000x100, .f32⟩
  | 100 => ⟨S50000x100, .f32⟩
  | 101 => ⟨S50000x100, .bf16⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x100, .bf16⟩
  | 111 => ⟨S800000x100, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x100, .bf16⟩
  | 121 => ⟨S800000x100, .f32⟩
  | 122 => ⟨S800000x100, .f32⟩
  | 123 => ⟨S_, .f32⟩
  | 124 => ⟨S800000, .f32⟩
  | 125 => ⟨S800000, .f32⟩
  | 126 => ⟨S800000, .f32⟩
  | 127 => ⟨S_, .f32⟩
  | _ => ⟨S50000x64, .f32⟩

abbrev hbmTy0_1 (i : Nat) : BufTy := match i % 128 with
  | 0 => ⟨S800000, .f32⟩
  | 1 => ⟨S800000, .f32⟩
  | 2 => ⟨S_, .f32⟩
  | 3 => ⟨S800000, .f32⟩
  | 4 => ⟨S800000, .f32⟩
  | 5 => ⟨S_, .f32⟩
  | 6 => ⟨S800000, .f32⟩
  | 7 => ⟨S800000, .f32⟩
  | 8 => ⟨S800000, .f32⟩
  | 9 => ⟨S_, .f32⟩
  | 10 => ⟨S_, .f32⟩
  | 11 => ⟨S_, .f32⟩
  | 12 => ⟨S_, .f32⟩
  | 13 => ⟨S_, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x100, .bf16⟩
  | 23 => ⟨S800000x100, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x100, .bf16⟩
  | 33 => ⟨S800000x100, .f32⟩
  | 34 => ⟨S800000x100, .f32⟩
  | 35 => ⟨S_, .f32⟩
  | 36 => ⟨S800000, .f32⟩
  | 37 => ⟨S800000, .f32⟩
  | 38 => ⟨S800000, .f32⟩
  | 39 => ⟨S_, .f32⟩
  | 40 => ⟨S800000, .f32⟩
  | 41 => ⟨S800000, .f32⟩
  | 42 => ⟨S_, .f32⟩
  | 43 => ⟨S800000, .f32⟩
  | 44 => ⟨S800000, .f32⟩
  | 45 => ⟨S_, .f32⟩
  | 46 => ⟨S800000, .f32⟩
  | 47 => ⟨S800000, .f32⟩
  | 48 => ⟨S_, .f32⟩
  | 49 => ⟨S800000, .f32⟩
  | 50 => ⟨S800000, .f32⟩
  | 51 => ⟨S800000, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S50000x100, .bf16⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x100, .bf16⟩
  | 68 => ⟨S800000x100, .f32⟩
  | 69 => ⟨S800000x1, .f32⟩
  | 70 => ⟨S800000x100, .f32⟩
  | 71 => ⟨S800000x100, .f32⟩
  | 72 => ⟨S_, .f32⟩
  | 73 => ⟨S50000x100, .f32⟩
  | 74 => ⟨S800000x1, .i32⟩
  | 75 => ⟨S50000x100, .f32⟩
  | 76 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .bf16⟩
  | .local _ .vmem, ⟨1, _⟩ => ⟨S2000x64, .bf16⟩
  | .local _ .vmem, ⟨2, _⟩ => ⟨S2000x64, .f32⟩
  | .local _ .vmem, ⟨3, _⟩ => ⟨S2000x64, .f32⟩
  | .local _ .vmem, ⟨4, _⟩ => ⟨S64x300, .f32⟩
  | .local _ .vmem, ⟨5, _⟩ => ⟨S64x300, .f32⟩
  | .local _ .vmem, ⟨6, _⟩ => ⟨S300, .f32⟩
  | .local _ .vmem, ⟨7, _⟩ => ⟨S2000x300, .bf16⟩
  | .local _ .vmem, ⟨8, _⟩ => ⟨S2000x300, .bf16⟩
  | .local _ .vmem, ⟨9, _⟩ => ⟨S2000x300, .bf16⟩
  | .local _ .vmem, ⟨10, _⟩ => ⟨S2000x300, .bf16⟩
  | .local _ .vmem, ⟨11, _⟩ => ⟨S2000x300, .f32⟩
  | .local _ .vmem, ⟨12, _⟩ => ⟨S2000x300, .f32⟩
  | .local _ .vmem, ⟨13, _⟩ => ⟨S2000x64, .bf16⟩
  | .local _ .vmem, ⟨14, _⟩ => ⟨S2000x64, .bf16⟩
  | .local _ .vmem, ⟨15, _⟩ => ⟨S300x100, .f32⟩
  | .local _ .vmem, ⟨16, _⟩ => ⟨S300x100, .f32⟩
  | .local _ .vmem, ⟨17, _⟩ => ⟨S100, .f32⟩
  | .local _ .vmem, ⟨18, _⟩ => ⟨S64x100, .f32⟩
  | .local _ .vmem, ⟨19, _⟩ => ⟨S100, .f32⟩
  | .local _ .vmem, ⟨20, _⟩ => ⟨S64x100, .f32⟩
  | .local _ .vmem, ⟨21, _⟩ => ⟨S100, .f32⟩
  | .local _ .vmem, ⟨22, _⟩ => ⟨S2000x100, .f32⟩
  | .local _ .vmem, ⟨23, _⟩ => ⟨S2000x100, .f32⟩
  | .local _ .vmem, ⟨24, _⟩ => ⟨S2000x100, .f32⟩
  | .local _ .vmem, ⟨25, _⟩ => ⟨S2000x100, .f32⟩
  | .local _ .vmem, ⟨26, _⟩ => ⟨S2000x100, .bf16⟩
  | .local _ .vmem, ⟨27, _⟩ => ⟨S2000x100, .bf16⟩
  | .local _ .vmem, ⟨28, _⟩ => ⟨S2000x100, .f32⟩
  | .local _ .vmem, ⟨29, _⟩ => ⟨S2000x100, .f32⟩
  | .local _ .vmem, ⟨30, _⟩ => ⟨S100x1, .f32⟩
  | .local _ .vmem, ⟨31, _⟩ => ⟨S100x1, .f32⟩
  | .local _ .vmem, ⟨32, _⟩ => ⟨S1, .f32⟩
  | .local _ .vmem, ⟨33, _⟩ => ⟨S2000x1, .f32⟩
  | .local _ .vmem, ⟨34, _⟩ => ⟨S2000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v17 : Ref sig .tc := ⟨.hbm, 42, rfl⟩
abbrev main_c : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev main_v27 : Ref sig .tc := ⟨.hbm, 55, rfl⟩
abbrev main_c_6 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v36 : Ref sig .tc := ⟨.hbm, 66, rfl⟩
abbrev main_c_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_10 : Ref sig .tc := ⟨.hbm, 82, rfl⟩
abbrev main_v50 : Ref sig .tc := ⟨.hbm, 83, rfl⟩
abbrev main_v51 : Ref sig .tc := ⟨.hbm, 84, rfl⟩
abbrev main_c_11 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64_0 : Ref sig .tc := ⟨.hbm, 99, rfl⟩
abbrev main_v64_1 : Ref sig .tc := ⟨.hbm, 100, rfl⟩
abbrev main_v65 : Ref sig .tc := ⟨.hbm, 101, rfl⟩
abbrev main_c_13 : Ref sig .tc := ⟨.hbm, 102, rfl⟩
abbrev main_v66 : Ref sig .tc := ⟨.hbm, 103, rfl⟩
abbrev main_v67 : Ref sig .tc := ⟨.hbm, 104, rfl⟩
abbrev main_c_14 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_15 : Ref sig .tc := ⟨.hbm, 112, rfl⟩
abbrev main_v74 : Ref sig .tc := ⟨.hbm, 113, rfl⟩
abbrev main_v75 : Ref sig .tc := ⟨.hbm, 114, rfl⟩
abbrev main_c_16 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_17 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_18 : Ref sig .tc := ⟨.hbm, 127, rfl⟩
abbrev main_v86 : Ref sig .tc := ⟨.hbm, 128, rfl⟩
abbrev main_v87 : Ref sig .tc := ⟨.hbm, 129, rfl⟩
abbrev main_cst_19 : Ref sig .tc := ⟨.hbm, 130, rfl⟩
abbrev main_v88 : Ref sig .tc := ⟨.hbm, 131, rfl⟩
abbrev main_v89 : Ref sig .tc := ⟨.hbm, 132, rfl⟩
abbrev main_cst_20 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_21 : Ref sig .tc := ⟨.hbm, 137, rfl⟩
abbrev main_v93 : Ref sig .tc := ⟨.hbm, 138, rfl⟩
abbrev main_cst_22 : Ref sig .tc := ⟨.hbm, 139, rfl⟩
abbrev main_v94 : Ref sig .tc := ⟨.hbm, 140, rfl⟩
abbrev main_v95 : Ref sig .tc := ⟨.hbm, 141, rfl⟩
abbrev main_c_23 : Ref sig .tc := ⟨.hbm, 142, rfl⟩
abbrev main_v96 : Ref sig .tc := ⟨.hbm, 143, rfl⟩
abbrev main_v97 : Ref sig .tc := ⟨.hbm, 144, rfl⟩
abbrev main_c_24 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_c_25 : Ref sig .tc := ⟨.hbm, 152, rfl⟩
abbrev main_v104 : Ref sig .tc := ⟨.hbm, 153, rfl⟩
abbrev main_v105 : Ref sig .tc := ⟨.hbm, 154, rfl⟩
abbrev main_c_26 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_27 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_28 : Ref sig .tc := ⟨.hbm, 167, rfl⟩
abbrev main_v116 : Ref sig .tc := ⟨.hbm, 168, rfl⟩
abbrev main_v117 : Ref sig .tc := ⟨.hbm, 169, rfl⟩
abbrev main_cst_29 : Ref sig .tc := ⟨.hbm, 170, rfl⟩
abbrev main_v118 : Ref sig .tc := ⟨.hbm, 171, rfl⟩
abbrev main_v119 : Ref sig .tc := ⟨.hbm, 172, rfl⟩
abbrev main_cst_30 : Ref sig .tc := ⟨.hbm, 173, rfl⟩
abbrev main_v120 : Ref sig .tc := ⟨.hbm, 174, rfl⟩
abbrev main_v121 : Ref sig .tc := ⟨.hbm, 175, rfl⟩
abbrev main_cst_31 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_32 : Ref sig .tc := ⟨.hbm, 180, rfl⟩
abbrev main_v125 : Ref sig .tc := ⟨.hbm, 181, rfl⟩
abbrev main_cst_33 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_c_34 : Ref sig .tc := ⟨.hbm, 187, rfl⟩
abbrev main_v130 : Ref sig .tc := ⟨.hbm, 188, rfl⟩
abbrev main_v131 : Ref sig .tc := ⟨.hbm, 189, rfl⟩
abbrev main_c_35 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_cst_36 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg11_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem10_1 : DmaSem sig := 23
abbrev cc1_sem11_0 : DmaSem sig := 24
abbrev cc1_sem11_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x300 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S300x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S300x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S100 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x100 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S100 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x100 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S100 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x100 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2000x100 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x100 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x100 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S100x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S100x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bitsLt_bf16_f32 : FTy.bits .bf16 < FTy.bits .f32
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x300_S64x300_0_0 : ∀ a, (![0, 0] : Fin 2 → Nat) a + S64x300.size a ≤ S64x300.size a
  h_S64x300 : 0 < S64x300.numel
  inb_S300_S300_0 : ∀ a, (![0] : Fin 1 → Nat) a + S300.size a ≤ S300.size a
  h_S300 : 0 < S300.numel
  shapeCasts_S300_S1x300 : S300.ShapeCasts S1x300
  broadcasts_S1x300_S2000x300 : S1x300.Broadcasts S2000x300
  inb_S2000x300_S2000x300_0_0 : ∀ a, (![0, 0] : Fin 2 → Nat) a + S2000x300.size a ≤ S2000x300.size a
  h_S2000x300 : 0 < S2000x300.numel
  packedbf16_S2000x300_S2000x300_0_0 : (Rect.unit (s := S2000x300) ![0, 0] S2000x300.size inb_S2000x300_S2000x300_0_0).PackedRows (EltTy.packing .bf16)
  bcast_S800000x1_S800000x300_0_1 : S800000x1.BroadcastsInDim S800000x300 (![0, 1] : Fin 2 → Fin S800000x300.rank)
  bcast_S_S50000x300 : S_.BroadcastsInDim S50000x300 (![] : Fin 0 → Fin S50000x300.rank)
  shapeCasts_S2000x300_S2000x300 : S2000x300.ShapeCasts S2000x300
  inb_S300x100_S300x100_0_0 : ∀ a, (![0, 0] : Fin 2 → Nat) a + S300x100.size a ≤ S300x100.size a
  h_S300x100 : 0 < S300x100.numel
  inb_S100_S100_0 : ∀ a, (![0] : Fin 1 → Nat) a + S100.size a ≤ S100.size a
  h_S100 : 0 < S100.numel
  shapeCasts_S100_S1x100 : S100.ShapeCasts S1x100
  broadcasts_S1x100_S2000x100 : S1x100.Broadcasts S2000x100
  inb_S64x100_S64x100_0_0 : ∀ a, (![0, 0] : Fin 2 → Nat) a + S64x100.size a ≤ S64x100.size a
  h_S64x100 : 0 < S64x100.numel
  inb_S2000x100_S2000x100_0_0 : ∀ a, (![0, 0] : Fin 2 → Nat) a + S2000x100.size a ≤ S2000x100.size a
  h_S2000x100 : 0 < S2000x100.numel
  reducesTo_S800000x100_S800000_d1 : S800000x100.ReducesTo [1] S800000
  h_S_ : 0 < S_.numel
  reducesTo_S800000_S_d0 : S800000.ReducesTo [0] S_
  bcast_S800000x1_S800000x100_0_1 : S800000x1.BroadcastsInDim S800000x100 (![0, 1] : Fin 2 → Fin S800000x100.rank)
  bcast_S_S50000x100 : S_.BroadcastsInDim S50000x100 (![] : Fin 0 → Fin S50000x100.rank)
  shapeCasts_S2000x100_S2000x100 : S2000x100.ShapeCasts S2000x100
  inb_S100x1_S100x1_0_0 : ∀ a, (![0, 0] : Fin 2 → Nat) a + S100x1.size a ≤ S100x1.size a
  h_S100x1 : 0 < S100x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x300_S2000x300_1_0_0_1_n_n_wf : DotDims.WF S2000x64 S64x300 S2000x300 [1] [0] [0] [1] [] []
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1
  dot_S2000x300_S300x100_S2000x100_1_0_0_1_n_n_wf : DotDims.WF S2000x300 S300x100 S2000x100 [1] [0] [0] [1] [] []
  dot_S2000x64_S64x100_S2000x100_1_0_0_1_n_n_wf : DotDims.WF S2000x64 S64x100 S2000x100 [1] [0] [0] [1] [] []
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S2000x100_S100x1_S2000x1_1_0_0_1_n_n_wf : DotDims.WF S2000x100 S100x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .bf16 = 32 ∨ (Rect.block (s := S50000x64) S2000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x300.size a ≤ S64x300.size a
  hwx0_2 : ∀ i : grid0.Coords, EltTy.bits .f32 = 32 ∨ (Rect.block (s := S64x300) S64x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x300.size a ≤ S64x300.size a
  hwx0_3 : ∀ i : grid0.Coords, EltTy.bits .f32 = 32 ∨ (Rect.block (s := S64x300) S64x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S300.size a ≤ S300.size a
  hwx0_4 : ∀ i : grid0.Coords, EltTy.bits .f32 = 32 ∨ (Rect.block (s := S300) S300.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x300.size a ≤ S50000x300.size a
  hwx0_5 : ∀ i : grid0.Coords, EltTy.bits .bf16 = 32 ∨ (Rect.block (s := S50000x300) S2000x300.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S50000x300.size a
  hwx1_0 : ∀ i : grid1.Coords, EltTy.bits .bf16 = 32 ∨ (Rect.block (s := S50000x300) S2000x300.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x300.size a ≤ S50000x300.size a
  hwx1_1 : ∀ i : grid1.Coords, EltTy.bits .f32 = 32 ∨ (Rect.block (s := S50000x300) S2000x300.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .bf16 = 32 ∨ (Rect.block (s := S50000x64) S2000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S300x100.size a ≤ S300x100.size a
  hwx1_3 : ∀ i : grid1.Coords, EltTy.bits .f32 = 32 ∨ (Rect.block (s := S300x100) S300x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S300x100.size a ≤ S300x100.size a
  hwx1_4 : ∀ i : grid1.Coords, EltTy.bits .f32 = 32 ∨ (Rect.block (s := S300x100) S300x100.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S100.size a ≤ S100.size a
  hwx1_5 : ∀ i : grid1.Coords, EltTy.bits .f32 = 32 ∨ (Rect.block (s := S100) S100.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x100.size a ≤ S64x100.size a
  hwx1_6 : ∀ i : grid1.Coords, EltTy.bits .f32 = 32 ∨ (Rect.block (s := S64x100) S64x100.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S100.size a ≤ S100.size a
  hwx1_7 : ∀ i : grid1.Coords, EltTy.bits .f32 = 32 ∨ (Rect.block (s := S100) S100.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x100.size a ≤ S64x100.size a
  hwx1_8 : ∀ i : grid1.Coords, EltTy.bits .f32 = 32 ∨ (Rect.block (s := S64x100) S64x100.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S100.size a ≤ S100.size a
  hwx1_9 : ∀ i : grid1.Coords, EltTy.bits .f32 = 32 ∨ (Rect.block (s := S100) S100.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x100.size a ≤ S50000x100.size a
  hwx1_10 : ∀ i : grid1.Coords, EltTy.bits .f32 = 32 ∨ (Rect.block (s := S50000x100) S2000x100.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x100.size a ≤ S50000x100.size a
  hwx1_11 : ∀ i : grid1.Coords, EltTy.bits .f32 = 32 ∨ (Rect.block (s := S50000x100) S2000x100.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x100.size a ≤ S50000x100.size a
  hwx2_0 : ∀ i : grid2.Coords, EltTy.bits .bf16 = 32 ∨ (Rect.block (s := S50000x100) S2000x100.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x100.size a ≤ S50000x100.size a
  hwx2_1 : ∀ i : grid2.Coords, EltTy.bits .f32 = 32 ∨ (Rect.block (s := S50000x100) S2000x100.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S100x1.size a ≤ S100x1.size a
  hwx2_2 : ∀ i : grid2.Coords, EltTy.bits .f32 = 32 ∨ (Rect.block (s := S100x1) S100x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S100x1.size a ≤ S100x1.size a
  hwx2_3 : ∀ i : grid2.Coords, EltTy.bits .f32 = 32 ∨ (Rect.block (s := S100x1) S100x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S50000x1.size a
  hwx2_5 : ∀ i : grid2.Coords, EltTy.bits .f32 = 32 ∨ (Rect.block (s := S50000x1) S2000x1.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x300_S2000x300_1_0_0_1_n_n : DotDims S2000x64 S64x300 S2000x300 where
  lhsContracting := [1]
  rhsContracting := [0]
  lhsNonContracting := [0]
  rhsNonContracting := [1]
  lhsBatch := []
  rhsBatch := []
  wf := dot_S2000x64_S64x300_S2000x300_1_0_0_1_n_n_wf
def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf
def dot_S2000x300_S300x100_S2000x100_1_0_0_1_n_n : DotDims S2000x300 S300x100 S2000x100 where
  lhsContracting := [1]
  rhsContracting := [0]
  lhsNonContracting := [0]
  rhsNonContracting := [1]
  lhsBatch := []
  rhsBatch := []
  wf := dot_S2000x300_S300x100_S2000x100_1_0_0_1_n_n_wf
def dot_S2000x64_S64x100_S2000x100_1_0_0_1_n_n : DotDims S2000x64 S64x100 S2000x100 where
  lhsContracting := [1]
  rhsContracting := [0]
  lhsNonContracting := [0]
  rhsNonContracting := [1]
  lhsBatch := []
  rhsBatch := []
  wf := dot_S2000x64_S64x100_S2000x100_1_0_0_1_n_n_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S2000x100_S100x1_S2000x1_1_0_0_1_n_n : DotDims S2000x100 S100x1 S2000x1 where
  lhsContracting := [1]
  rhsContracting := [0]
  lhsNonContracting := [0]
  rhsNonContracting := [1]
  lhsBatch := []
  rhsBatch := []
  wf := dot_S2000x100_S100x1_S2000x1_1_0_0_1_n_n_wf

abbrev win0_0 : Pipeline.Window sig grid0 :=
  Pipeline.Window.ofSpec (Memref.whole main_v34) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S2000x300.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S2000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S300x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S300x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S100.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S64x100.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S100.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S64x100.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg15) S100.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v64_0) S2000x100.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v64_1) S2000x100.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v129) S2000x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v143) S2000x100.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S100x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S100x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v144) S2000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x300 : Shape := ⟨2, ![64, 300]⟩
abbrev S300 : Shape := ⟨1, ![300]⟩
abbrev S300x100 : Shape := ⟨2, ![300, 100]⟩
abbrev S100 : Shape := ⟨1, ![100]⟩
abbrev S100x1 : Shape := ⟨2, ![100, 1]⟩
abbrev S1 : Shape := ⟨1, ![1]⟩
abbrev S64x100 : Shape := ⟨2, ![64, 100]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x300 : Shape := ⟨2, ![50000, 300]⟩
abbrev S1x300 : Shape := ⟨2, ![1, 300]⟩
abbrev S800000x300 : Shape := ⟨2, ![800000, 300]⟩
abbrev S50000x100 : Shape := ⟨2, ![50000, 100]⟩
abbrev S1x100 : Shape := ⟨2, ![1, 100]⟩
abbrev S800000x100 : Shape := ⟨2, ![800000, 100]⟩
abbrev S50000x1 : Shape := ⟨2, ![50000, 1]⟩
abbrev S1x1 : Shape := ⟨2, ![1, 1]⟩

abbrev nBuf : Space → Nat
  | .hbm => 231
  | .vmem => 0
  | .smem => 0
  | _ => 0

abbrev hbmTy0_0 (i : Nat) : BufTy := match i % 128 with
  | 0 => ⟨S50000x64, .f32⟩
  | 1 => ⟨S2x800000, .i32⟩
  | 2 => ⟨S2x800000, .i32⟩
  | 3 => ⟨S64x300, .f32⟩
  | 4 => ⟨S64x300, .f32⟩
  | 5 => ⟨S300, .f32⟩
  | 6 => ⟨S300x100, .f32⟩
  | 7 => ⟨S300x100, .f32⟩
  | 8 => ⟨S100, .f32⟩
  | 9 => ⟨S100x1, .f32⟩
  | 10 => ⟨S100x1, .f32⟩
  | 11 => ⟨S1, .f32⟩
  | 12 => ⟨S64x100, .f32⟩
  | 13 => ⟨S100, .f32⟩
  | 14 => ⟨S64x100, .f32⟩
  | 15 => ⟨S100, .f32⟩
  | 16 => ⟨S1, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S800000, .f32⟩
  | 59 => ⟨S800000x1, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x64, .f32⟩
  | 69 => ⟨S800000x64, .f32⟩
  | 70 => ⟨S800000x64, .f32⟩
  | 71 => ⟨S_, .f32⟩
  | 72 => ⟨S50000x64, .f32⟩
  | 73 => ⟨S800000x1, .i32⟩
  | 74 => ⟨S50000x64, .f32⟩
  | 75 => ⟨S50000x300, .f32⟩
  | 76 => ⟨S50000x300, .f32⟩
  | 77 => ⟨S50000x300, .f32⟩
  | 78 => ⟨S1x300, .f32⟩
  | 79 => ⟨S50000x300, .f32⟩
  | 80 => ⟨S50000x300, .f32⟩
  | 81 => ⟨S_, .f32⟩
  | 82 => ⟨S50000x300, .f32⟩
  | 83 => ⟨S50000x300, .f32⟩
  | 84 => ⟨S800000x1, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x300, .f32⟩
  | 94 => ⟨S800000x300, .f32⟩
  | 95 => ⟨S800000x300, .f32⟩
  | 96 => ⟨S_, .f32⟩
  | 97 => ⟨S50000x300, .f32⟩
  | 98 => ⟨S800000x1, .i32⟩
  | 99 => ⟨S50000x300, .f32⟩
  | 100 => ⟨S50000x100, .f32⟩
  | 101 => ⟨S50000x100, .f32⟩
  | 102 => ⟨S50000x100, .f32⟩
  | 103 => ⟨S1x100, .f32⟩
  | 104 => ⟨S50000x100, .f32⟩
  | 105 => ⟨S50000x100, .f32⟩
  | 106 => ⟨S_, .f32⟩
  | 107 => ⟨S50000x100, .f32⟩
  | 108 => ⟨S50000x100, .f32⟩
  | 109 => ⟨S50000x100, .f32⟩
  | 110 => ⟨S1x100, .f32⟩
  | 111 => ⟨S50000x100, .f32⟩
  | 112 => ⟨S50000x100, .f32⟩
  | 113 => ⟨S_, .f32⟩
  | 114 => ⟨S50000x100, .f32⟩
  | 115 => ⟨S50000x100, .f32⟩
  | 116 => ⟨S50000x100, .f32⟩
  | 117 => ⟨S50000x100, .f32⟩
  | 118 => ⟨S1x100, .f32⟩
  | 119 => ⟨S50000x100, .f32⟩
  | 120 => ⟨S50000x100, .f32⟩
  | 121 => ⟨S_, .f32⟩
  | 122 => ⟨S50000x100, .f32⟩
  | 123 => ⟨S50000x100, .f32⟩
  | 124 => ⟨S50000x100, .f32⟩
  | 125 => ⟨S_, .i32⟩
  | 126 => ⟨S800000, .i32⟩
  | 127 => ⟨S800000, .i1⟩
  | _ => ⟨S50000x64, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x100, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x100, .f32⟩
  | 15 => ⟨S800000x100, .f32⟩
  | 16 => ⟨S_, .f32⟩
  | 17 => ⟨S800000, .f32⟩
  | 18 => ⟨S800000, .f32⟩
  | 19 => ⟨S800000, .f32⟩
  | 20 => ⟨S_, .f32⟩
  | 21 => ⟨S800000, .f32⟩
  | 22 => ⟨S800000, .f32⟩
  | 23 => ⟨S_, .f32⟩
  | 24 => ⟨S800000, .f32⟩
  | 25 => ⟨S800000, .f32⟩
  | 26 => ⟨S_, .f32⟩
  | 27 => ⟨S800000, .f32⟩
  | 28 => ⟨S800000, .f32⟩
  | 29 => ⟨S800000, .f32⟩
  | 30 => ⟨S_, .f32⟩
  | 31 => ⟨S_, .f32⟩
  | 32 => ⟨S_, .f32⟩
  | 33 => ⟨S_, .f32⟩
  | 34 => ⟨S_, .f32⟩
  | 35 => ⟨S1x800000, .i32⟩
  | 36 => ⟨S800000, .i32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x100, .f32⟩
  | 46 => ⟨S1x800000, .i32⟩
  | 47 => ⟨S800000, .i32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x100, .f32⟩
  | 57 => ⟨S800000x100, .f32⟩
  | 58 => ⟨S_, .f32⟩
  | 59 => ⟨S800000, .f32⟩
  | 60 => ⟨S800000, .f32⟩
  | 61 => ⟨S800000, .f32⟩
  | 62 => ⟨S_, .f32⟩
  | 63 => ⟨S800000, .f32⟩
  | 64 => ⟨S800000, .f32⟩
  | 65 => ⟨S_, .f32⟩
  | 66 => ⟨S800000, .f32⟩
  | 67 => ⟨S800000, .f32⟩
  | 68 => ⟨S_, .f32⟩
  | 69 => ⟨S800000, .f32⟩
  | 70 => ⟨S800000, .f32⟩
  | 71 => ⟨S_, .f32⟩
  | 72 => ⟨S800000, .f32⟩
  | 73 => ⟨S800000, .f32⟩
  | 74 => ⟨S800000, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S800000x1, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x100, .f32⟩
  | 91 => ⟨S800000x100, .f32⟩
  | 92 => ⟨S800000x100, .f32⟩
  | 93 => ⟨S_, .f32⟩
  | 94 => ⟨S50000x100, .f32⟩
  | 95 => ⟨S800000x1, .i32⟩
  | 96 => ⟨S50000x100, .f32⟩
  | 97 => ⟨S50000x1, .f32⟩
  | 98 => ⟨S50000x1, .f32⟩
  | 99 => ⟨S50000x1, .f32⟩
  | 100 => ⟨S1x1, .f32⟩
  | 101 => ⟨S50000x1, .f32⟩
  | 102 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v13 : Ref sig .tc := ⟨.hbm, 38, rfl⟩
abbrev main_c : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_5 : Ref sig .tc := ⟨.hbm, 49, rfl⟩
abbrev main_v22 : Ref sig .tc := ⟨.hbm, 50, rfl⟩
abbrev main_v23 : Ref sig .tc := ⟨.hbm, 51, rfl⟩
abbrev main_c_6 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_7 : Ref sig .tc := ⟨.hbm, 60, rfl⟩
abbrev main_v31 : Ref sig .tc := ⟨.hbm, 61, rfl⟩
abbrev main_v32 : Ref sig .tc := ⟨.hbm, 62, rfl⟩
abbrev main_c_8 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_9 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call1_cst : Ref sig .tc := ⟨.hbm, 81, rfl⟩
abbrev main_call1_v0 : Ref sig .tc := ⟨.hbm, 82, rfl⟩
abbrev main_v49 : Ref sig .tc := ⟨.hbm, 83, rfl⟩
abbrev main_v50 : Ref sig .tc := ⟨.hbm, 84, rfl⟩
abbrev main_c_10 : Ref sig .tc := ⟨.hbm, 85, rfl⟩
abbrev main_v51 : Ref sig .tc := ⟨.hbm, 86, rfl⟩
abbrev main_v52 : Ref sig .tc := ⟨.hbm, 87, rfl⟩
abbrev main_c_11 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_12 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_call2_cst : Ref sig .tc := ⟨.hbm, 106, rfl⟩
abbrev main_call2_v0 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_call3_cst : Ref sig .tc := ⟨.hbm, 113, rfl⟩
abbrev main_call3_v0 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_call4_cst : Ref sig .tc := ⟨.hbm, 121, rfl⟩
abbrev main_call4_v0 : Ref sig .tc := ⟨.hbm, 122, rfl⟩
abbrev main_v80 : Ref sig .tc := ⟨.hbm, 123, rfl⟩
abbrev main_v81 : Ref sig .tc := ⟨.hbm, 124, rfl⟩
abbrev main_c_13 : Ref sig .tc := ⟨.hbm, 125, rfl⟩
abbrev main_v82 : Ref sig .tc := ⟨.hbm, 126, rfl⟩
abbrev main_v83 : Ref sig .tc := ⟨.hbm, 127, rfl⟩
abbrev main_c_14 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_c_15 : Ref sig .tc := ⟨.hbm, 134, rfl⟩
abbrev main_v89 : Ref sig .tc := ⟨.hbm, 135, rfl⟩
abbrev main_v90 : Ref sig .tc := ⟨.hbm, 136, rfl⟩
abbrev main_c_16 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_17 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_18 : Ref sig .tc := ⟨.hbm, 148, rfl⟩
abbrev main_v100 : Ref sig .tc := ⟨.hbm, 149, rfl⟩
abbrev main_v101 : Ref sig .tc := ⟨.hbm, 150, rfl⟩
abbrev main_cst_19 : Ref sig .tc := ⟨.hbm, 151, rfl⟩
abbrev main_v102 : Ref sig .tc := ⟨.hbm, 152, rfl⟩
abbrev main_v103 : Ref sig .tc := ⟨.hbm, 153, rfl⟩
abbrev main_cst_20 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_21 : Ref sig .tc := ⟨.hbm, 158, rfl⟩
abbrev main_v107 : Ref sig .tc := ⟨.hbm, 159, rfl⟩
abbrev main_cst_22 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_c_23 : Ref sig .tc := ⟨.hbm, 165, rfl⟩
abbrev main_v112 : Ref sig .tc := ⟨.hbm, 166, rfl⟩
abbrev main_v113 : Ref sig .tc := ⟨.hbm, 167, rfl⟩
abbrev main_c_24 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_c_25 : Ref sig .tc := ⟨.hbm, 176, rfl⟩
abbrev main_v121 : Ref sig .tc := ⟨.hbm, 177, rfl⟩
abbrev main_v122 : Ref sig .tc := ⟨.hbm, 178, rfl⟩
abbrev main_c_26 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_cst_27 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_cst_28 : Ref sig .tc := ⟨.hbm, 190, rfl⟩
abbrev main_v132 : Ref sig .tc := ⟨.hbm, 191, rfl⟩
abbrev main_v133 : Ref sig .tc := ⟨.hbm, 192, rfl⟩
abbrev main_cst_29 : Ref sig .tc := ⟨.hbm, 193, rfl⟩
abbrev main_v134 : Ref sig .tc := ⟨.hbm, 194, rfl⟩
abbrev main_v135 : Ref sig .tc := ⟨.hbm, 195, rfl⟩
abbrev main_cst_30 : Ref sig .tc := ⟨.hbm, 196, rfl⟩
abbrev main_v136 : Ref sig .tc := ⟨.hbm, 197, rfl⟩
abbrev main_v137 : Ref sig .tc := ⟨.hbm, 198, rfl⟩
abbrev main_cst_31 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_cst_32 : Ref sig .tc := ⟨.hbm, 203, rfl⟩
abbrev main_v141 : Ref sig .tc := ⟨.hbm, 204, rfl⟩
abbrev main_cst_33 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_c_34 : Ref sig .tc := ⟨.hbm, 210, rfl⟩
abbrev main_v146 : Ref sig .tc := ⟨.hbm, 211, rfl⟩
abbrev main_v147 : Ref sig .tc := ⟨.hbm, 212, rfl⟩
abbrev main_c_35 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_cst_36 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  bcast_S_S50000x300 : S_.BroadcastsInDim S50000x300 (![] : Fin 0 → Fin S50000x300.rank)
  bcast_S800000x1_S800000x300_0_1 : S800000x1.BroadcastsInDim S800000x300 (![0, 1] : Fin 2 → Fin S800000x300.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S_S50000x100 : S_.BroadcastsInDim S50000x100 (![] : Fin 0 → Fin S50000x100.rank)
  reducesTo_S800000x100_S800000_d1 : S800000x100.ReducesTo [1] S800000
  h_S_ : 0 < S_.numel
  reducesTo_S800000_S_d0 : S800000.ReducesTo [0] S_
  bcast_S800000x1_S800000x100_0_1 : S800000x1.BroadcastsInDim S800000x100 (![0, 1] : Fin 2 → Fin S800000x100.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x300_S50000x300_1_0_0_1_n_n_wf : DotDims.WF S50000x64 S64x300 S50000x300 [1] [0] [0] [1] [] []
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1
  dot_S50000x300_S300x100_S50000x100_1_0_0_1_n_n_wf : DotDims.WF S50000x300 S300x100 S50000x100 [1] [0] [0] [1] [] []
  dot_S50000x64_S64x100_S50000x100_1_0_0_1_n_n_wf : DotDims.WF S50000x64 S64x100 S50000x100 [1] [0] [0] [1] [] []
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S50000x100_S100x1_S50000x1_1_0_0_1_n_n_wf : DotDims.WF S50000x100 S100x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x300_S50000x300_1_0_0_1_n_n : DotDims S50000x64 S64x300 S50000x300 where
  lhsContracting := [1]
  rhsContracting := [0]
  lhsNonContracting := [0]
  rhsNonContracting := [1]
  lhsBatch := []
  rhsBatch := []
  wf := dot_S50000x64_S64x300_S50000x300_1_0_0_1_n_n_wf
def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf
def dot_S50000x300_S300x100_S50000x100_1_0_0_1_n_n : DotDims S50000x300 S300x100 S50000x100 where
  lhsContracting := [1]
  rhsContracting := [0]
  lhsNonContracting := [0]
  rhsNonContracting := [1]
  lhsBatch := []
  rhsBatch := []
  wf := dot_S50000x300_S300x100_S50000x100_1_0_0_1_n_n_wf
def dot_S50000x64_S64x100_S50000x100_1_0_0_1_n_n : DotDims S50000x64 S64x100 S50000x100 where
  lhsContracting := [1]
  rhsContracting := [0]
  lhsNonContracting := [0]
  rhsNonContracting := [1]
  lhsBatch := []
  rhsBatch := []
  wf := dot_S50000x64_S64x100_S50000x100_1_0_0_1_n_n_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S50000x100_S100x1_S50000x1_1_0_0_1_n_n : DotDims S50000x100 S100x1 S50000x1 where
  lhsContracting := [1]
  rhsContracting := [0]
  lhsNonContracting := [0]
  rhsNonContracting := [1]
  lhsBatch := []
  rhsBatch := []
  wf := dot_S50000x100_S100x1_S50000x1_1_0_0_1_n_n_wf

class Facts : Prop extends Facts₀ where

variable [Facts]
-- ==== Proof.KernelRun.lean ====
/-
  The idealized kernel program's run with its two computed results named. The program is three kernel regions
  among stretches of host operations; the contents of every unscoped buffer at each boundary are a fold from the
  launch memory (the generated frame module's W0 … W8). Every weakly fair execution terminates, nothing faulting,
  with the node output and the loss at what the last boundary's contents W8 hold for them, and with the argument
  arrays as launched.
-/
import proofs.«123812_j1503238553647_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the node output (the last region's output array) and the loss (a host scalar) end at the last
    boundary's contents; the arguments end as launched. -/
theorem run : θ_run defs (onTc (τ := τ) (main (F := F))) ⟨m, fun _ => 0, ρ⟩ (fun r => ∀ c : Dev nD,
      r.2.mem ((c.tc : Thread nD τ).loc main_v144) = W8 m ρ c (Proc.devRef .tc main_v144)
      ∧ r.2.mem ((c.tc : Thread nD τ).loc main_v128) = W8 m ρ c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v144 (by decide)),
       h c _ (mem_uc main_v128 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c)⟩)

end Cert.KernelIdeal.RunValue

end
-- ==== Proof.LibLayoutReads.lean ====
/-
  Layout operations of a host program read at an index written by its coordinates: a broadcast of a scalar, of a
  vector to a column or a row, of a column or a row to a matrix; a vector cast to a one-row matrix; a plain matrix
  product read at (i, j) as the sum over the contracted coordinate; and two scalar facts: the guarded reciprocal
  square root select(x > 0, rsqrt x, 0) is a nonnegative real, and the wrap of a negative index leaves a
  nonnegative 32-bit word alone.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.LayoutReads

open Idealize.ShloMosaic Idealize.ShloMosaic.ValueIdx

variable {α : Type}

/-! ## Broadcasts at an index -/

/-- A broadcast scalar reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector [a] broadcast to a column [a, 1] reads, at (i, u), the vector at i. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) :=
  broadcastInDim_apply _ h x _ (ix1 i) (fun c => by
    have hi := i.isLt
    match c with
    | ⟨0, _⟩ =>
      show i.val = if a = 1 then 0 else i.val
      split <;> omega)

/-- A vector [b] broadcast to a row [1, b] reads, at (u, j), the vector at j. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) :=
  broadcastInDim_apply _ h x _ (ix1 j) (fun c => by
    have hj := j.isLt
    match c with
    | ⟨0, _⟩ =>
      show j.val = if b = 1 then 0 else j.val
      split <;> omega)

/-- A column [a, 1] broadcast to a matrix [a, b] reads, at (i, j), the column at (i, 0). -/
theorem bcast_col_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) :=
  broadcastInDim_apply _ h x _ (ix2 i (0 : Fin 1)) (fun c => by
    have hi := i.isLt
    match c with
    | ⟨0, _⟩ =>
      show i.val = if a = 1 then 0 else i.val
      split <;> omega
    | ⟨1, _⟩ =>
      show 0 = if 1 = 1 then 0 else j.val
      rfl)

/-- A row [1, b] broadcast to a matrix [a, b] reads, at (i, j), the row at (0, j). -/
theorem bcast_row_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) :=
  broadcastInDim_apply _ h x _ (ix2 (0 : Fin 1) j) (fun c => by
    have hj := j.isLt
    match c with
    | ⟨0, _⟩ =>
      show 0 = if 1 = 1 then 0 else i.val
      rfl
    | ⟨1, _⟩ =>
      show j.val = if b = 1 then 0 else j.val
      split <;> omega)

/-- A vector [b] cast to a one-row matrix [1, b] reads, at (u, j), the vector at j. -/
theorem shapeCast_vec_row_apply {b : ℕ} (h : (⟨1, ![b]⟩ : Shape).ShapeCasts ⟨2, ![1, b]⟩)
    (x : (⟨1, ![b]⟩ : Shape).Idx → α) (u : Fin 1) (j : Fin b) : shapeCast ⟨2, ![1, b]⟩ x h (ix2 u j) = x (ix1 j) :=
  shapeCast_a_1a_apply x h u j

/-! ## Two scalar facts -/

/-- The guarded reciprocal square root, select(x > 0, rsqrt x, 0), is a nonnegative real at every extended real x:
    0 off the positive half-line, 0 at the top, and the inverse of the square root at a positive real. -/
theorem dinv_nonneg_real (x : EReal) :
    ∃ r : ℝ, 0 ≤ r ∧ Scalar.select (Ideal.cmp .ogt x 0) (Ideal.rsqrt x) 0 = (r : EReal) := by
  by_cases hx : 0 < x
  · have hc : Ideal.cmp .ogt x 0 = 1#1 := by simp [Ideal.cmp, hx]
    rw [hc, select_one]
    induction x using EReal.rec with
    | bot => exact absurd hx (by simp)
    | top => exact ⟨0, le_rfl, by simp⟩
    | coe r =>
      have hr : 0 < r := by exact_mod_cast hx
      refine ⟨(Real.sqrt r)⁻¹, inv_nonneg.mpr (Real.sqrt_nonneg r), ?_⟩
      rw [Ideal.rsqrt_coe, if_neg (not_lt.mpr hr.le), if_neg hr.ne']
  · have hc : Ideal.cmp .ogt x 0 = 0#1 := by simp [Ideal.cmp, hx]
    rw [hc, select_zero]
    exact ⟨0, le_rfl, by simp⟩

/-- A 32-bit word that reads, signed, as nonnegative is left alone by the wrap of negative indices. -/
theorem wrap_of_nonneg (v : BitVec 32) (h0 : 0 ≤ v.toInt) :
    Scalar.select (IntOp.cmpi .slt v 0#32) (IntOp.addi v 100000#32) v = v := by
  have hs : v.slt 0#32 = false := by
    unfold BitVec.slt
    simp
    exact h0
  have hc : IntOp.cmpi .slt v 0#32 = 0#1 := by
    show BitVec.ofBool (v.slt 0#32) = 0#1
    rw [hs]; rfl
  rw [hc, select_zero]

/-! ## A plain matrix product at an index -/

/-- With no batch axis and one non-contracting axis on the left, that axis reads the result index's first coordinate. -/
theorem lhsIdx_val_of_single_non {sl sr so : Shape} (d : DotDims sl sr so) {a : Fin sl.rank}
    (hb : d.lhsBatch = []) (hn : d.lhsNonContracting = [a]) (j : so.Idx) (k : d.contr.Idx) (h0 : 0 < so.rank) :
    (d.lhsIdx j k a).val = (j ⟨0, h0⟩).val := by
  have hmem : a ∈ d.lhsNonContracting := by rw [hn]; exact List.mem_singleton.mpr rfl
  unfold DotDims.lhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one non-contracting axis on the left and one on the right, the right one reads the result
    index's second coordinate. -/
theorem rhsIdx_val_of_single_non {sl sr so : Shape} (d : DotDims sl sr so) {al : Fin sl.rank} {a : Fin sr.rank}
    (hlb : d.lhsBatch = []) (hrb : d.rhsBatch = []) (hln : d.lhsNonContracting = [al]) (hn : d.rhsNonContracting = [a])
    (j : so.Idx) (k : d.contr.Idx) (h1 : 1 < so.rank) :
    (d.rhsIdx j k a).val = (j ⟨1, h1⟩).val := by
  have hmem : a ∈ d.rhsNonContracting := by rw [hn]; exact List.mem_singleton.mpr rfl
  unfold DotDims.rhsIdx
  rw [dif_neg (by rw [hrb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

/-- A plain matrix product [n, kk] x [kk, p] on the host, at the exact values, read at (i, j): the sum over the
    contracted coordinate k of lhs (i, k) * rhs (k, j). -/
theorem dotGeneral_plain_apply {n kk p : ℕ} {φ₁ φ₂ : FTy} (d : DotDims ⟨2, ![n, kk]⟩ ⟨2, ![kk, p]⟩ ⟨2, ![n, p]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![n, kk]⟩ φ₁) (rhs : FVec Ideal ⟨2, ![kk, p]⟩ φ₂)
    (i : Fin n) (j : Fin p) :
    Host.dotGeneral (F := Ideal) d prec lhs rhs (ix2 i j) = ∑ k : Fin kk, lhs (ix2 i k) * rhs (ix2 k j) := by
  have hr : d.contr.rank = 1 := by rw [d.rank_contr, hlc]; rfl
  have hs : d.contr.size ⟨0, by omega⟩ = kk := by
    have h1 : (0 : Nat) < d.lhsContracting.length := by rw [hlc]; exact Nat.one_pos
    refine (d.size_contr 0 h1).trans ?_
    have h2 : d.lhsContracting[0] = (1 : Fin 2) := by simp [hlc]
    rw [h2]; rfl
  simp only [Host.dotGeneral]
  rw [Ideal.dotGeneral_apply]
  refine Fintype.sum_equiv (contrEquiv1 d kk hr hs) _ _ (fun k => ?_)
  have hL : d.lhsIdx (ix2 i j) k = ix2 i (contrEquiv1 d kk hr hs k) := by
    funext c; refine Fin.ext ?_
    match c with
    | ⟨0, _⟩ => exact lhsIdx_val_of_single_non d hlb hln (ix2 i j) k (show 0 < 2 by omega)
    | ⟨1, _⟩ => exact d.lhsIdx_val_of_single hlc (ix2 i j) k
  have hR : d.rhsIdx (ix2 i j) k = ix2 (contrEquiv1 d kk hr hs k) j := by
    funext c; refine Fin.ext ?_
    match c with
    | ⟨0, _⟩ => exact d.rhsIdx_val_of_single hrc (ix2 i j) k
    | ⟨1, _⟩ => exact rhsIdx_val_of_single_non d hlb hrb hln hrn (ix2 i j) k (show 1 < 2 by omega)
  rw [hL, hR]

end Idealize.ShloMosaic.LayoutReads

end
-- ==== Proof.LibKernelReads.lean ====
/-
  A kernel-side operation read at an index written by coordinates: a plain matrix product [n, kk] x [kk, p] into a
  zero accumulator, at the exact values, reads at (i, j) the sum over the contracted coordinate k of
  lhs (i, k) * rhs (k, j).
-/
import proofs.«123812_j1503238553647_2_alg».proof.Proof.LibLayoutReads

noncomputable section

open scoped BigOperators

namespace Idealize.ShloMosaic.LayoutReads

open Idealize.ShloMosaic Idealize.ShloMosaic.ValueIdx

variable {α : Type}

/-- A plain matrix product [n, kk] x [kk, p] into the zero accumulator, at the exact values, read at (i, j). -/
theorem matmul_plain_zero_apply {n kk p : ℕ} {φ₁ φ₂ : FTy} (d : DotDims ⟨2, ![n, kk]⟩ ⟨2, ![kk, p]⟩ ⟨2, ![n, p]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![n, kk]⟩ φ₁) (rhs : FVec Ideal ⟨2, ![kk, p]⟩ φ₂)
    (i : Fin n) (j : Fin p) :
    FloatOps.matmul d prec lhs rhs (constant (F := Ideal) ⟨2, ![n, p]⟩ .f32 0x00000000#32) (ix2 i j)
      = ∑ k : Fin kk, lhs (ix2 i k) * rhs (ix2 k j) := by
  have hr : d.contr.rank = 1 := by rw [d.rank_contr, hlc]; rfl
  have hs : d.contr.size ⟨0, by omega⟩ = kk := by
    have h1 : (0 : Nat) < d.lhsContracting.length := by rw [hlc]; exact Nat.one_pos
    refine (d.size_contr 0 h1).trans ?_
    have h2 : d.lhsContracting[0] = (1 : Fin 2) := by simp [hlc]
    rw [h2]; rfl
  rw [Ideal.matmul_constant_zero_apply]
  refine Fintype.sum_equiv (contrEquiv1 d kk hr hs) _ _ (fun k => ?_)
  have hL : d.lhsIdx (ix2 i j) k = ix2 i (contrEquiv1 d kk hr hs k) := by
    funext c; refine Fin.ext ?_
    match c with
    | ⟨0, _⟩ => exact lhsIdx_val_of_single_non d hlb hln (ix2 i j) k (show 0 < 2 by omega)
    | ⟨1, _⟩ => exact d.lhsIdx_val_of_single hlc (ix2 i j) k
  have hR : d.rhsIdx (ix2 i j) k = ix2 (contrEquiv1 d kk hr hs k) j := by
    funext c; refine Fin.ext ?_
    match c with
    | ⟨0, _⟩ => exact d.rhsIdx_val_of_single hrc (ix2 i j) k
    | ⟨1, _⟩ => exact rhsIdx_val_of_single_non d hlb hrb hln hrn (ix2 i j) k (show 1 < 2 by omega)
  rw [hL, hR]

end Idealize.ShloMosaic.LayoutReads

end
-- ==== Proof.LibChebLayer.lean ====
/-
  One Chebyshev layer of order two on a block of rows, before its activation: at row i and output feature j,
      (x · Wa) (i, j) + (tx · Wb) (i, j) + b j,
  the two products being plain sums over the contracted feature k on the extended reals. The same number is
  produced by a kernel body (two matrix products into zero accumulators, the bias cast to a row and broadcast
  over the rows) and by a host program (two dot_generals, the bias broadcast to a row and then to the matrix);
  both are read here at an index written by its coordinates, over abstract extents. A change of float format
  is the identity at the exact values, so an operand is the same function of its index before and after it.
-/
import proofs.«123812_j1503238553647_2_alg».proof.Proof.LibKernelReads

noncomputable section

open scoped BigOperators

namespace Cheb

open Idealize.ShloMosaic Idealize.ShloMosaic.ValueIdx Idealize.ShloMosaic.LayoutReads

/-- x · Wa + tx · Wb + b at (i, j): the layer before its activation. -/
def lin2 {n kk p : ℕ} (x tx : (⟨2, ![n, kk]⟩ : Shape).Idx → EReal) (Wa Wb : (⟨2, ![kk, p]⟩ : Shape).Idx → EReal)
    (b : (⟨1, ![p]⟩ : Shape).Idx → EReal) (i : Fin n) (j : Fin p) : EReal :=
  (∑ k : Fin kk, x (ix2 i k) * Wa (ix2 k j) + ∑ k : Fin kk, tx (ix2 i k) * Wb (ix2 k j)) + b (ix1 j)

/-- x · W + b at (i, j): a plain linear projection. -/
def lin1 {n kk p : ℕ} (x : (⟨2, ![n, kk]⟩ : Shape).Idx → EReal) (W : (⟨2, ![kk, p]⟩ : Shape).Idx → EReal)
    (b : (⟨1, ![p]⟩ : Shape).Idx → EReal) (i : Fin n) (j : Fin p) : EReal :=
  ∑ k : Fin kk, x (ix2 i k) * W (ix2 k j) + b (ix1 j)

/-- The activation: the maximum with the float word zero (the word is the same on both sides and is never evaluated). -/
def relu (v : EReal) : EReal := max v (Ideal.ofBits .f32 0x00000000#32)

/-- The layer without activation as one function of whole arrays. -/
def layer2 {n kk p : ℕ} (x tx : (⟨2, ![n, kk]⟩ : Shape).Idx → EReal) (Wa Wb : (⟨2, ![kk, p]⟩ : Shape).Idx → EReal)
    (b : (⟨1, ![p]⟩ : Shape).Idx → EReal) : (⟨2, ![n, p]⟩ : Shape).Idx → EReal :=
  fun y => lin2 x tx Wa Wb b (y 0) (y 1)

/-- The layer with its activation as one function of whole arrays. -/
def reluLayer2 {n kk p : ℕ} (x tx : (⟨2, ![n, kk]⟩ : Shape).Idx → EReal) (Wa Wb : (⟨2, ![kk, p]⟩ : Shape).Idx → EReal)
    (b : (⟨1, ![p]⟩ : Shape).Idx → EReal) : (⟨2, ![n, p]⟩ : Shape).Idx → EReal :=
  fun y => relu (lin2 x tx Wa Wb b (y 0) (y 1))

/-- A linear projection with the activation as one function of whole arrays. -/
def reluLayer1 {n kk p : ℕ} (x : (⟨2, ![n, kk]⟩ : Shape).Idx → EReal) (W : (⟨2, ![kk, p]⟩ : Shape).Idx → EReal)
    (b : (⟨1, ![p]⟩ : Shape).Idx → EReal) : (⟨2, ![n, p]⟩ : Shape).Idx → EReal :=
  fun y => relu (lin1 x W b (y 0) (y 1))

/-- The second layer's activated output plus an activated projection of the input features. -/
def mixed {n k1 k2 p : ℕ} (h tx : (⟨2, ![n, k1]⟩ : Shape).Idx → EReal) (Wa Wb : (⟨2, ![k1, p]⟩ : Shape).Idx → EReal)
    (b : (⟨1, ![p]⟩ : Shape).Idx → EReal) (x : (⟨2, ![n, k2]⟩ : Shape).Idx → EReal) (W : (⟨2, ![k2, p]⟩ : Shape).Idx → EReal)
    (b' : (⟨1, ![p]⟩ : Shape).Idx → EReal) : (⟨2, ![n, p]⟩ : Shape).Idx → EReal :=
  fun y => relu (lin2 h tx Wa Wb b (y 0) (y 1)) + relu (lin1 x W b' (y 0) (y 1))

/-! ## The kernel body's form -/

/-- Two matrix products into zero accumulators plus the bias as a broadcast row, read at (r, j). -/
theorem body2_apply {tm kk p : ℕ} {φ₁ φ₂ φ₃ φ₄ : FTy}
    (d : DotDims ⟨2, ![tm, kk]⟩ ⟨2, ![kk, p]⟩ ⟨2, ![tm, p]⟩)
    (hlc : d.lhsContracting = [1]) (hrc : d.rhsContracting = [0]) (hln : d.lhsNonContracting = [0])
    (hrn : d.rhsNonContracting = [1]) (hlb : d.lhsBatch = []) (hrb : d.rhsBatch = [])
    (hc : (⟨1, ![p]⟩ : Shape).ShapeCasts ⟨2, ![1, p]⟩) (hb : (⟨2, ![1, p]⟩ : Shape).Broadcasts ⟨2, ![tm, p]⟩)
    (x : FVec Ideal ⟨2, ![tm, kk]⟩ φ₁) (tx : FVec Ideal ⟨2, ![tm, kk]⟩ φ₂)
    (Wa : FVec Ideal ⟨2, ![kk, p]⟩ φ₃) (Wb : FVec Ideal ⟨2, ![kk, p]⟩ φ₄) (b : FVec Ideal ⟨1, ![p]⟩ .f32)
    (r : Fin tm) (j : Fin p) :
    addf (addf (FloatOps.matmul d none x Wa (constant (F := Ideal) ⟨2, ![tm, p]⟩ .f32 0x00000000#32))
          (FloatOps.matmul d none tx Wb (constant (F := Ideal) ⟨2, ![tm, p]⟩ .f32 0x00000000#32)))
        (broadcastTo ⟨2, ![tm, p]⟩ (shapeCast ⟨2, ![1, p]⟩ b hc) hb) (ix2 r j)
      = lin2 x tx Wa Wb b r j := by
  rw [addf_apply, addf_apply, matmul_plain_zero_apply d hlc hrc hln hrn hlb hrb,
    matmul_plain_zero_apply d hlc hrc hln hrn hlb hrb, broadcastTo_1b_ab_apply, shapeCast_a_1a_apply]
  rfl

/-- One matrix product into a zero accumulator plus the bias as a broadcast row, read at (r, j). -/
theorem body1_apply {tm kk p : ℕ} {φ₁ φ₂ : FTy}
    (d : DotDims ⟨2, ![tm, kk]⟩ ⟨2, ![kk, p]⟩ ⟨2, ![tm, p]⟩)
    (hlc : d.lhsContracting = [1]) (hrc : d.rhsContracting = [0]) (hln : d.lhsNonContracting = [0])
    (hrn : d.rhsNonContracting = [1]) (hlb : d.lhsBatch = []) (hrb : d.rhsBatch = [])
    (hc : (⟨1, ![p]⟩ : Shape).ShapeCasts ⟨2, ![1, p]⟩) (hb : (⟨2, ![1, p]⟩ : Shape).Broadcasts ⟨2, ![tm, p]⟩)
    (x : FVec Ideal ⟨2, ![tm, kk]⟩ φ₁) (W : FVec Ideal ⟨2, ![kk, p]⟩ φ₂) (b : FVec Ideal ⟨1, ![p]⟩ .f32)
    (r : Fin tm) (j : Fin p) :
    addf (FloatOps.matmul d none x W (constant (F := Ideal) ⟨2, ![tm, p]⟩ .f32 0x00000000#32))
        (broadcastTo ⟨2, ![tm, p]⟩ (shapeCast ⟨2, ![1, p]⟩ b hc) hb) (ix2 r j)
      = lin1 x W b r j := by
  rw [addf_apply, matmul_plain_zero_apply d hlc hrc hln hrn hlb hrb, broadcastTo_1b_ab_apply, shapeCast_a_1a_apply]
  rfl

/-! ## The host program's form -/

/-- Two dot_generals plus the bias broadcast to a row and then to the matrix, read at (i, j). -/
theorem host2_apply {n kk p : ℕ} {φ₁ φ₂ φ₃ φ₄ : FTy}
    (d : DotDims ⟨2, ![n, kk]⟩ ⟨2, ![kk, p]⟩ ⟨2, ![n, p]⟩)
    (hlc : d.lhsContracting = [1]) (hrc : d.rhsContracting = [0]) (hln : d.lhsNonContracting = [0])
    (hrn : d.rhsNonContracting = [1]) (hlb : d.lhsBatch = []) (hrb : d.rhsBatch = [])
    (h1 : (⟨1, ![p]⟩ : Shape).BroadcastsInDim ⟨2, ![1, p]⟩ (![1] : Fin 1 → Fin 2))
    (h2 : (⟨2, ![1, p]⟩ : Shape).BroadcastsInDim ⟨2, ![n, p]⟩ (![0, 1] : Fin 2 → Fin 2))
    (x : FVec Ideal ⟨2, ![n, kk]⟩ φ₁) (tx : FVec Ideal ⟨2, ![n, kk]⟩ φ₂)
    (Wa : FVec Ideal ⟨2, ![kk, p]⟩ φ₃) (Wb : FVec Ideal ⟨2, ![kk, p]⟩ φ₄) (b : FVec Ideal ⟨1, ![p]⟩ .f32)
    (i : Fin n) (j : Fin p) :
    addf (addf (Host.dotGeneral (F := Ideal) d none x Wa) (Host.dotGeneral (F := Ideal) d none tx Wb))
        (broadcastInDim ⟨2, ![n, p]⟩ ![0, 1] h2 (broadcastInDim ⟨2, ![1, p]⟩ ![1] h1 b)) (ix2 i j)
      = lin2 x tx Wa Wb b i j := by
  rw [addf_apply, addf_apply, dotGeneral_plain_apply d hlc hrc hln hrn hlb hrb,
    dotGeneral_plain_apply d hlc hrc hln hrn hlb hrb, bcast_row_apply, bcast_vec_row_apply]
  rfl

/-- One dot_general plus the bias broadcast to a row and then to the matrix, read at (i, j). -/
theorem host1_apply {n kk p : ℕ} {φ₁ φ₂ : FTy}
    (d : DotDims ⟨2, ![n, kk]⟩ ⟨2, ![kk, p]⟩ ⟨2, ![n, p]⟩)
    (hlc : d.lhsContracting = [1]) (hrc : d.rhsContracting = [0]) (hln : d.lhsNonContracting = [0])
    (hrn : d.rhsNonContracting = [1]) (hlb : d.lhsBatch = []) (hrb : d.rhsBatch = [])
    (h1 : (⟨1, ![p]⟩ : Shape).BroadcastsInDim ⟨2, ![1, p]⟩ (![1] : Fin 1 → Fin 2))
    (h2 : (⟨2, ![1, p]⟩ : Shape).BroadcastsInDim ⟨2, ![n, p]⟩ (![0, 1] : Fin 2 → Fin 2))
    (x : FVec Ideal ⟨2, ![n, kk]⟩ φ₁) (W : FVec Ideal ⟨2, ![kk, p]⟩ φ₂) (b : FVec Ideal ⟨1, ![p]⟩ .f32)
    (i : Fin n) (j : Fin p) :
    addf (Host.dotGeneral (F := Ideal) d none x W)
        (broadcastInDim ⟨2, ![n, p]⟩ ![0, 1] h2 (broadcastInDim ⟨2, ![1, p]⟩ ![1] h1 b)) (ix2 i j)
      = lin1 x W b i j := by
  rw [addf_apply, dotGeneral_plain_apply d hlc hrc hln hrn hlb hrb, bcast_row_apply, bcast_vec_row_apply]
  rfl

end Cheb

end
-- ==== Proof.RefLayers.lean ====
/-
  The reference program's four dense stages, each as one function of whole arrays: the first layer
  h = max (x · W1a + tx1 · W1b + b1) 0, the two mixed outputs xm and z (the second layer's activated output plus
  an activated projection of x), and the third layer without activation. Each stage is two dot_generals, a bias
  broadcast to a row and to the matrix, and where there is an activation a maximum with a broadcast zero;
  read at (i, j) these are the sums that define the layer.
-/
import proofs.«123812_j1503238553647_2_alg».proof.Proof.RefReadP
import proofs.«123812_j1503238553647_2_alg».proof.Proof.LibChebLayer

noncomputable section

open scoped BigOperators

namespace Cert.ReferenceIdeal.Layers

open Cert.ReferenceIdeal Cert.ReferenceIdeal.ReadP
open Idealize.ShloMosaic Idealize.ShloMosaic.ValueIdx Idealize.ShloMosaic.LayoutReads

/-- The first layer. -/
theorem h_eq (a0 : (⟨S50000x64, .f32⟩ : BufTy).Contents (Elt Ideal)) (a1 : (⟨S2x800000, .i32⟩ : BufTy).Contents (Elt Ideal))
    (a3 a4 : (⟨S64x300, .f32⟩ : BufTy).Contents (Elt Ideal)) (a5 : (⟨S300, .f32⟩ : BufTy).Contents (Elt Ideal)) :
    val_main_v49 (F := Ideal) a0 a1 a3 a4 a5 = Cheb.reluLayer2 a0 (val_main_v42 (F := Ideal) a0 a1) a3 a4 a5 := by
  funext y
  obtain ⟨i, j, rfl⟩ : ∃ (i : Fin 50000) (j : Fin 300), y = ix2 i j := ⟨y 0, y 1, eq_ix2 y⟩
  unfold val_main_v49 val_main_v48 val_main_v47 val_main_v46 val_main_v45 val_main_v44 val_main_v43 val_main_call1_v0 val_main_call1_cst
  rw [maximumf_apply, Cheb.host2_apply _ rfl rfl rfl rfl rfl rfl, bcast_scalar_apply, constant_apply]
  rfl

/-- The second layer's activated output at (i, j). -/
theorem x1_apply (a0 : (⟨S50000x64, .f32⟩ : BufTy).Contents (Elt Ideal)) (a1 : (⟨S2x800000, .i32⟩ : BufTy).Contents (Elt Ideal))
    (a3 a4 : (⟨S64x300, .f32⟩ : BufTy).Contents (Elt Ideal)) (a5 : (⟨S300, .f32⟩ : BufTy).Contents (Elt Ideal))
    (a6 a7 : (⟨S300x100, .f32⟩ : BufTy).Contents (Elt Ideal)) (a8 : (⟨S100, .f32⟩ : BufTy).Contents (Elt Ideal))
    (i : Fin 50000) (j : Fin 100) :
    val_main_v69 (F := Ideal) a0 a1 a3 a4 a5 a6 a7 a8 (ix2 i j)
      = Cheb.relu (Cheb.lin2 (val_main_v49 (F := Ideal) a0 a1 a3 a4 a5) (val_main_v62 (F := Ideal) a0 a1 a3 a4 a5) a6 a7 a8 i j) := by
  unfold val_main_v69 val_main_v68 val_main_v67 val_main_v66 val_main_v65 val_main_v64 val_main_v63 val_main_call2_v0 val_main_call2_cst
  rw [maximumf_apply, Cheb.host2_apply _ rfl rfl rfl rfl rfl rfl, bcast_scalar_apply, constant_apply]
  rfl

/-- xm: the second layer plus the first activated projection of x. -/
theorem xm_eq (a0 : (⟨S50000x64, .f32⟩ : BufTy).Contents (Elt Ideal)) (a1 : (⟨S2x800000, .i32⟩ : BufTy).Contents (Elt Ideal))
    (a3 a4 : (⟨S64x300, .f32⟩ : BufTy).Contents (Elt Ideal)) (a5 : (⟨S300, .f32⟩ : BufTy).Contents (Elt Ideal))
    (a6 a7 : (⟨S300x100, .f32⟩ : BufTy).Contents (Elt Ideal)) (a8 : (⟨S100, .f32⟩ : BufTy).Contents (Elt Ideal))
    (a12 : (⟨S64x100, .f32⟩ : BufTy).Contents (Elt Ideal)) (a13 : (⟨S100, .f32⟩ : BufTy).Contents (Elt Ideal)) :
    val_main_v75 (F := Ideal) a0 a1 a3 a4 a5 a6 a7 a8 a12 a13
      = Cheb.mixed (val_main_v49 (F := Ideal) a0 a1 a3 a4 a5) (val_main_v62 (F := Ideal) a0 a1 a3 a4 a5) a6 a7 a8 a0 a12 a13 := by
  funext y
  obtain ⟨i, j, rfl⟩ : ∃ (i : Fin 50000) (j : Fin 100), y = ix2 i j := ⟨y 0, y 1, eq_ix2 y⟩
  unfold val_main_v75
  rw [addf_apply, x1_apply]
  unfold val_main_v74 val_main_v73 val_main_v72 val_main_v71 val_main_v70 val_main_call3_v0 val_main_call3_cst
  rw [maximumf_apply, Cheb.host1_apply _ rfl rfl rfl rfl rfl rfl, bcast_scalar_apply, constant_apply]
  rfl

/-- z: the second layer plus the second activated projection of x. -/
theorem z_eq (a0 : (⟨S50000x64, .f32⟩ : BufTy).Contents (Elt Ideal)) (a1 : (⟨S2x800000, .i32⟩ : BufTy).Contents (Elt Ideal))
    (a3 a4 : (⟨S64x300, .f32⟩ : BufTy).Contents (Elt Ideal)) (a5 : (⟨S300, .f32⟩ : BufTy).Contents (Elt Ideal))
    (a6 a7 : (⟨S300x100, .f32⟩ : BufTy).Contents (Elt Ideal)) (a8 : (⟨S100, .f32⟩ : BufTy).Contents (Elt Ideal))
    (a14 : (⟨S64x100, .f32⟩ : BufTy).Contents (Elt Ideal)) (a15 : (⟨S100, .f32⟩ : BufTy).Contents (Elt Ideal)) :
    val_main_v81 (F := Ideal) a0 a1 a3 a4 a5 a6 a7 a8 a14 a15
      = Cheb.mixed (val_main_v49 (F := Ideal) a0 a1 a3 a4 a5) (val_main_v62 (F := Ideal) a0 a1 a3 a4 a5) a6 a7 a8 a0 a14 a15 := by
  funext y
  obtain ⟨i, j, rfl⟩ : ∃ (i : Fin 50000) (j : Fin 100), y = ix2 i j := ⟨y 0, y 1, eq_ix2 y⟩
  unfold val_main_v81
  rw [addf_apply, x1_apply]
  unfold val_main_v80 val_main_v79 val_main_v78 val_main_v77 val_main_v76 val_main_call4_v0 val_main_call4_cst
  rw [maximumf_apply, Cheb.host1_apply _ rfl rfl rfl rfl rfl rfl, bcast_scalar_apply, constant_apply]
  rfl

/-- The third layer, no activation. -/
theorem out_eq (a0 : (⟨S50000x64, .f32⟩ : BufTy).Contents (Elt Ideal)) (a1 : (⟨S2x800000, .i32⟩ : BufTy).Contents (Elt Ideal))
    (a3 a4 : (⟨S64x300, .f32⟩ : BufTy).Contents (Elt Ideal)) (a5 : (⟨S300, .f32⟩ : BufTy).Contents (Elt Ideal))
    (a6 a7 : (⟨S300x100, .f32⟩ : BufTy).Contents (Elt Ideal)) (a8 : (⟨S100, .f32⟩ : BufTy).Contents (Elt Ideal))
    (a9 a10 : (⟨S100x1, .f32⟩ : BufTy).Contents (Elt Ideal)) (a11 : (⟨S1, .f32⟩ : BufTy).Contents (Elt Ideal))
    (a12 : (⟨S64x100, .f32⟩ : BufTy).Contents (Elt Ideal)) (a13 : (⟨S100, .f32⟩ : BufTy).Contents (Elt Ideal)) :
    val_main_v163 (F := Ideal) a0 a1 a3 a4 a5 a6 a7 a8 a9 a10 a11 a12 a13
      = Cheb.layer2 (val_main_v75 (F := Ideal) a0 a1 a3 a4 a5 a6 a7 a8 a12 a13)
          (val_main_v157 (F := Ideal) a0 a1 a3 a4 a5 a6 a7 a8 a12 a13) a9 a10 a11 := by
  funext y
  obtain ⟨i, j, rfl⟩ : ∃ (i : Fin 50000) (j : Fin 1), y = ix2 i j := ⟨y 0, y 1, eq_ix2 y⟩
  unfold val_main_v163 val_main_v162 val_main_v161 val_main_v160 val_main_v159 val_main_v158
  rw [Cheb.host2_apply _ rfl rfl rfl rfl rfl rfl]
  rfl

end Cert.ReferenceIdeal.Layers

end
-- ==== Proof.Region0.lean ====
/-
  The first kernel region: what its output array holds after the region, as one function of the arrays the region
  finds. The grid has 25 points; point t works on rows 2000 t … 2000 t + 1999 of the node features x and of the
  aggregated features tx, with the weights Wa, Wb and the bias b whole at every point, and writes the same rows of
  the output. Row i, feature j of the output is  max (x · Wa + tx · Wb + b) (i, j) 0 : a row of the output depends
  only on the same row of x and of tx, so the blocks are restrictions of one whole-array function and they tile it.
-/
import proofs.«123812_j1503238553647_2_alg».proof.Proof.Gen.KernelIdeal.Frame
import proofs.«123812_j1503238553647_2_alg».proof.Proof.LibChebLayer

set_option maxRecDepth 16384

noncomputable section

open scoped BigOperators

namespace Cert.KernelIdeal.Region0

open Cert.KernelIdeal Cert.KernelIdeal.Gen
open Idealize.ShloMosaic Idealize.ShloMosaic.TcCoe Idealize.SL.Sem
open Idealize.ShloMosaic.ValueIdx Idealize.ShloMosaic.LayoutReads
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a <;> rfl

/-- The layer with its activation, as one function of whole arrays. -/
abbrev G (x tx : S50000x64.Idx → EReal) (Wa Wb : S64x300.Idx → EReal) (b : S300.Idx → EReal) : S50000x300.Idx → EReal :=
  Cheb.reluLayer2 x tx Wa Wb b

/-- The body's stored value at row r, feature j of its block. -/
theorem pay_apply (v0 : FVec Ideal S2000x64 .bf16) (v2 : FVec Ideal S2000x64 .f32) (v5 v7 : FVec Ideal S64x300 .f32)
    (v12 : FVec Ideal S300 .f32) (r : Fin 2000) (j : Fin 300) :
    k0_pay1 (F := Ideal) v0 v2 v5 v7 v12 (ix2 r j) = Cheb.relu (Cheb.lin2 v0 v2 v5 v7 v12 r j) := by
  unfold k0_pay1
  simp only [shapeCast_self]
  rw [truncf_apply, maximumf_apply, broadcast_apply,
    Cheb.body2_apply dot_S2000x64_S64x300_S2000x300_1_0_0_1_n_n rfl rfl rfl rfl rfl rfl]
  rfl

/-- The printed index maps over the grid: the row-block windows sit at block row t, the others at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem t_lt (t : Fin cfg0.N) : t.val < 25 := lt_of_lt_of_eq t.isLt N_0

/-- Row r of point t's block is row 2000 t + r of the array. -/
def rowOf (t : Fin cfg0.N) (r : Fin 2000) : Fin 50000 := ⟨t.val * 2000 + r.val, by have := t_lt t; have := r.isLt; omega⟩

variable (V : (c : Dev nD) → (b : Ref sig .tc) → Buf (Elt Ideal) ((c : Thread nD τ).loc b))

/-- The blocks of the five input windows at point t, read at coordinates. -/
theorem blk0 (c : Dev nD) (t : Fin cfg0.N) (r : Fin 2000) (k : Fin 64) :
    iblk0 V c 0 t (ix2 r k) = V c main_v34 (ix2 (rowOf t r) k) := by
  obtain ⟨e0, e1, -⟩ := idx_facts t
  show V c main_v34 (((cfg0.win 0).blk t).view.emb (ix2 r k)) = _
  refine congrArg _ (funext fun a => Fin.ext ?_)
  match a with
  | ⟨0, _⟩ => show win0_0.index t (0 : Fin 2) * 2000 + 1 * r.val = t.val * 2000 + r.val; omega
  | ⟨1, _⟩ => show win0_0.index t (1 : Fin 2) * 64 + 1 * k.val = k.val; omega

theorem blk1 (c : Dev nD) (t : Fin cfg0.N) (r : Fin 2000) (k : Fin 64) :
    iblk0 V c 1 t (ix2 r k) = V c main_v48 (ix2 (rowOf t r) k) := by
  obtain ⟨-, -, e0, e1, -⟩ := idx_facts t
  show V c main_v48 (((cfg0.win 1).blk t).view.emb (ix2 r k)) = _
  refine congrArg _ (funext fun a => Fin.ext ?_)
  match a with
  | ⟨0, _⟩ => show win0_1.index t (0 : Fin 2) * 2000 + 1 * r.val = t.val * 2000 + r.val; omega
  | ⟨1, _⟩ => show win0_1.index t (1 : Fin 2) * 64 + 1 * k.val = k.val; omega

theorem blk2 (c : Dev nD) (t : Fin cfg0.N) (k : Fin 64) (j : Fin 300) :
    iblk0 V c 2 t (ix2 k j) = V c main_arg3 (ix2 k j) := by
  obtain ⟨-, -, -, -, e0, e1, -⟩ := idx_facts t
  show V c main_arg3 (((cfg0.win 2).blk t).view.emb (ix2 k j)) = _
  refine congrArg _ (funext fun a => Fin.ext ?_)
  match a with
  | ⟨0, _⟩ => show win0_2.index t (0 : Fin 2) * 64 + 1 * k.val = k.val; omega
  | ⟨1, _⟩ => show win0_2.index t (1 : Fin 2) * 300 + 1 * j.val = j.val; omega

theorem blk3 (c : Dev nD) (t : Fin cfg0.N) (k : Fin 64) (j : Fin 300) :
    iblk0 V c 3 t (ix2 k j) = V c main_arg4 (ix2 k j) := by
  obtain ⟨-, -, -, -, -, -, e0, e1, -⟩ := idx_facts t
  show V c main_arg4 (((cfg0.win 3).blk t).view.emb (ix2 k j)) = _
  refine congrArg _ (funext fun a => Fin.ext ?_)
  match a with
  | ⟨0, _⟩ => show win0_3.index t (0 : Fin 2) * 64 + 1 * k.val = k.val; omega
  | ⟨1, _⟩ => show win0_3.index t (1 : Fin 2) * 300 + 1 * j.val = j.val; omega

theorem blk4 (c : Dev nD) (t : Fin cfg0.N) (j : Fin 300) :
    iblk0 V c 4 t (ix1 j) = V c main_arg5 (ix1 j) := by
  obtain ⟨-, -, -, -, -, -, -, -, e0, -⟩ := idx_facts t
  show V c main_arg5 (((cfg0.win 4).blk t).view.emb (ix1 j)) = _
  refine congrArg _ (funext fun a => Fin.ext ?_)
  match a with
  | ⟨0, _⟩ => show win0_4.index t (0 : Fin 1) * 300 + 1 * j.val = j.val; omega

/-- Where row r, feature j of point t's output block lands in the array. -/
theorem emb5 (t : Fin cfg0.N) (r : Fin 2000) (j : Fin 300) :
    ((cfg0.win 5).blk t).view.emb (ix2 r j) = ix2 (rowOf t r) j := by
  obtain ⟨-, -, -, -, -, -, -, -, -, e0, e1⟩ := idx_facts t
  refine funext fun a => Fin.ext ?_
  match a with
  | ⟨0, _⟩ => show win0_5.index t (0 : Fin 2) * 2000 + 1 * r.val = t.val * 2000 + r.val; omega
  | ⟨1, _⟩ => show win0_5.index t (1 : Fin 2) * 300 + 1 * j.val = j.val; omega

/-- What point t writes back is block t of the whole-array function. -/
theorem flushed_eq (c : Dev nD) (t : Fin cfg0.N) :
    (dat0 V c).flushed 5 t = ((cfg0.win 5).blk t).view.read (Elt Ideal)
      (G (V c main_v34) (V c main_v48) (V c main_arg3) (V c main_arg4) (V c main_arg5)) := by
  show (cfg0.win 5).cut (grid0.coords t) ((dat0 V c).after 5 t) = _
  rw [after0_5]
  unfold out0_5
  rw [View.canon_unit_zero hz2]
  simp only [View.ld_unit_zero (S := S2000x64) hz2, View.ld_unit_zero (S := S64x300) hz2, View.ld_unit_zero (S := S300) hz1]
  funext y
  obtain ⟨r, j, rfl⟩ : ∃ (r : Fin 2000) (j : Fin 300), y = ix2 r j := ⟨y 0, y 1, eq_ix2 y⟩
  show k0_pay1 (F := Ideal) (iblk0 V c 0 t) (iblk0 V c 1 t) (iblk0 V c 2 t) (iblk0 V c 3 t) (iblk0 V c 4 t) (ix2 r j)
    = G (V c main_v34) (V c main_v48) (V c main_arg3) (V c main_arg4) (V c main_arg5) (((cfg0.win 5).blk t).view.emb (ix2 r j))
  refine (pay_apply (iblk0 V c 0 t) (iblk0 V c 1 t) (iblk0 V c 2 t) (iblk0 V c 3 t) (iblk0 V c 4 t) r j).trans ?_
  rw [emb5 t r j]
  show Cheb.relu (Cheb.lin2 (iblk0 V c 0 t) (iblk0 V c 1 t) (iblk0 V c 2 t) (iblk0 V c 3 t) (iblk0 V c 4 t) r j)
    = Cheb.relu (Cheb.lin2 (V c main_v34) (V c main_v48) (V c main_arg3) (V c main_arg4) (V c main_arg5) (rowOf t r) j)
  unfold Cheb.lin2
  simp only [blk0 V c t, blk1 V c t, blk2 V c t, blk3 V c t, blk4 V c t]

/-- An index of the array is in point t's block iff each coordinate is in the block's range on its axis. -/
theorem mem_blk (t : Fin cfg0.N) (i : S50000x300.Idx) :
    i ∈ ((cfg0.win 5).blk t).view.set ↔ ∀ a : Fin 2, win0_5.index t a * S2000x300.size a ≤ (i a).val ∧ (i a).val < win0_5.index t a * S2000x300.size a + S2000x300.size a := by
  show i ∈ ((View.whole main_v49).slice (win0_5.rect t)).set ↔ _
  rw [View.set_slice_whole, Rect.mem_set_unit]
  exact Iff.rfl

/-- Every index of the output array is in the block of the point that holds its row. -/
theorem cover (i : S50000x300.Idx) : ∃ t : Fin cfg0.N, (cfg0.win 5).flush t = true ∧ i ∈ ((cfg0.win 5).blk t).view.set := by
  have hi0 : (i 0).val < 50000 := (i 0).isLt
  have hi1 : (i 1).val < 300 := (i 1).isLt
  have hN : (i 0).val / 2000 < cfg0.N := lt_of_lt_of_eq (by omega : (i 0).val / 2000 < 25) N_0.symm
  refine ⟨⟨(i 0).val / 2000, hN⟩, flush0_5 _, ?_⟩
  obtain ⟨-, -, -, -, -, -, -, -, -, e0, e1⟩ := idx_facts ⟨(i 0).val / 2000, hN⟩
  rw [mem_blk]
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, hN⟩ (1 : Fin 2) * 300 ≤ (i 1).val ∧ (i 1).val < win0_5.index ⟨(i 0).val / 2000, hN⟩ (1 : Fin 2) * 300 + 300
    rw [e1]; omega

/-- The output array after the region. -/
theorem final (c : Dev nD) : (dat0 V c).arrAt 5 cfg0.N
    = G (V c main_v34) (V c main_v48) (V c main_arg3) (V c main_arg4) (V c main_arg5) :=
  (dat0 V c).arrAt_eq_of_cover 5 _ (fun t _ => flushed_eq V c t) cover

end Cert.KernelIdeal.Region0

end
-- ==== Proof.Bridge3.lean ====
/-
  The idealized kernel program up to the exit of its first region, read against the reference's stages.
  Before the first region the host computes, from the edge list, the row and column index vectors (for both edge
  lists), the degrees and their guarded inverse square roots dinv, the weights w = -dinv[row] * dinv[col], the input
  features x (a change of float format, the identity at the exact values) and the first aggregate
  tx1 = segment_sum (w * x[col], row): the same operations, in the same order, as the reference's, so each buffer
  holds the reference's stage of the same arguments. The stretches are read one at a time, each from entry contents
  of which only the needed buffers are known. The first region then leaves h = max (x · W1a + tx1 · W1b + b1) 0, the
  reference's first layer.
-/
import proofs.«123812_j1503238553647_2_alg».proof.Proof.Gen.KernelIdeal.Frame
import proofs.«123812_j1503238553647_2_alg».proof.Proof.RefReadP
import proofs.«123812_j1503238553647_2_alg».proof.Proof.RefLayers
import proofs.«123812_j1503238553647_2_alg».proof.Proof.Region0

set_option maxRecDepth 16384

noncomputable section

namespace Cert.KernelIdeal.Bridge

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first stretch: the index vectors, the degrees, the comparison and the inverse square root -/

/-- The row indices of the edges. -/
theorem w1_row : W1 m ρ c (Proc.devRef .tc main_v1) = val_main_v1 (F := Ideal) (m ((c : Thread nD τ).loc main_arg1)) := by
  dsimp only [W1, hostOps0]
  after_results_simp
  rfl

/-- The column indices of the edges. -/
theorem w1_col : W1 m ρ c (Proc.devRef .tc main_v3) = val_main_v3 (F := Ideal) (m ((c : Thread nD τ).loc main_arg1)) := by
  dsimp only [W1, hostOps0]
  after_results_simp
  rfl

/-- The row indices of the negative edges. -/
theorem w1_nrow : W1 m ρ c (Proc.devRef .tc main_v5) = val_main_v111 (F := Ideal) (m ((c : Thread nD τ).loc main_arg2)) := by
  dsimp only [W1, hostOps0]
  after_results_simp
  rfl

/-- The column indices of the negative edges. -/
theorem w1_ncol : W1 m ρ c (Proc.devRef .tc main_v7) = val_main_v120 (F := Ideal) (m ((c : Thread nD τ).loc main_arg2)) := by
  dsimp only [W1, hostOps0]
  after_results_simp
  rfl

/-- Where the degree is positive. -/
theorem w1_pos : W1 m ρ c (Proc.devRef .tc main_v13) = val_main_v9 (F := Ideal) (m ((c : Thread nD τ).loc main_arg1)) := by
  dsimp only [W1, hostOps0]
  after_results_simp
  rfl

/-- The inverse square root of the degree, floored away from zero. -/
theorem w1_rsq : W1 m ρ c (Proc.devRef .tc main_v16) = val_main_v12 (F := Ideal) (m ((c : Thread nD τ).loc main_arg1)) := by
  dsimp only [W1, hostOps0]
  after_results_simp
  rfl

/-- The scalar zero of the guarded select. -/
theorem w1_zero : W1 m ρ c (Proc.devRef .tc main_cst_3) = val_main_cst_3 (F := Ideal) := by
  dsimp only [W1, hostOps0]
  after_results_simp
  rfl

/-- Argument 0 is as launched. -/
theorem w1_arg0 : W1 m ρ c (Proc.devRef .tc main_arg0) = (m ((c : Thread nD τ).loc main_arg0)) := by
  dsimp only [W1, hostOps0]
  after_results_simp

/-- Argument 3 is as launched. -/
theorem w1_arg3 : W1 m ρ c (Proc.devRef .tc main_arg3) = (m ((c : Thread nD τ).loc main_arg3)) := by
  dsimp only [W1, hostOps0]
  after_results_simp

/-- Argument 4 is as launched. -/
theorem w1_arg4 : W1 m ρ c (Proc.devRef .tc main_arg4) = (m ((c : Thread nD τ).loc main_arg4)) := by
  dsimp only [W1, hostOps0]
  after_results_simp

/-- Argument 5 is as launched. -/
theorem w1_arg5 : W1 m ρ c (Proc.devRef .tc main_arg5) = (m ((c : Thread nD τ).loc main_arg5)) := by
  dsimp only [W1, hostOps0]
  after_results_simp

/-- Argument 6 is as launched. -/
theorem w1_arg6 : W1 m ρ c (Proc.devRef .tc main_arg6) = (m ((c : Thread nD τ).loc main_arg6)) := by
  dsimp only [W1, hostOps0]
  after_results_simp

/-- Argument 7 is as launched. -/
theorem w1_arg7 : W1 m ρ c (Proc.devRef .tc main_arg7) = (m ((c : Thread nD τ).loc main_arg7)) := by
  dsimp only [W1, hostOps0]
  after_results_simp

/-- Argument 8 is as launched. -/
theorem w1_arg8 : W1 m ρ c (Proc.devRef .tc main_arg8) = (m ((c : Thread nD τ).loc main_arg8)) := by
  dsimp only [W1, hostOps0]
  after_results_simp

/-- Argument 9 is as launched. -/
theorem w1_arg9 : W1 m ρ c (Proc.devRef .tc main_arg9) = (m ((c : Thread nD τ).loc main_arg9)) := by
  dsimp only [W1, hostOps0]
  after_results_simp

/-- Argument 10 is as launched. -/
theorem w1_arg10 : W1 m ρ c (Proc.devRef .tc main_arg10) = (m ((c : Thread nD τ).loc main_arg10)) := by
  dsimp only [W1, hostOps0]
  after_results_simp

/-- Argument 11 is as launched. -/
theorem w1_arg11 : W1 m ρ c (Proc.devRef .tc main_arg11) = (m ((c : Thread nD τ).loc main_arg11)) := by
  dsimp only [W1, hostOps0]
  after_results_simp

/-- Argument 12 is as launched. -/
theorem w1_arg12 : W1 m ρ c (Proc.devRef .tc main_arg12) = (m ((c : Thread nD τ).loc main_arg12)) := by
  dsimp only [W1, hostOps0]
  after_results_simp

/-- Argument 13 is as launched. -/
theorem w1_arg13 : W1 m ρ c (Proc.devRef .tc main_arg13) = (m ((c : Thread nD τ).loc main_arg13)) := by
  dsimp only [W1, hostOps0]
  after_results_simp

/-- Argument 14 is as launched. -/
theorem w1_arg14 : W1 m ρ c (Proc.devRef .tc main_arg14) = (m ((c : Thread nD τ).loc main_arg14)) := by
  dsimp only [W1, hostOps0]
  after_results_simp

/-- Argument 15 is as launched. -/
theorem w1_arg15 : W1 m ρ c (Proc.devRef .tc main_arg15) = (m ((c : Thread nD τ).loc main_arg15)) := by
  dsimp only [W1, hostOps0]
  after_results_simp

/-! ## The second stretch: the guarded select dinv = where (deg > 0, rsqrt, 0), an outlined function of three operations -/

/-- The three operations from any entry contents. -/
theorem where_of (E : Valuation τ sig (Elt Ideal)) :
    after (hostOps0_1 (F := Ideal)) E (Proc.devRef .tc main_v17)
      = select (E (Proc.devRef .tc main_v13)) (E (Proc.devRef .tc main_v16))
          (broadcastInDim S50000 ![] bcast_S_S50000 (id (E (Proc.devRef .tc main_cst_3)))) := by
  dsimp only [hostOps0_1]
  after_results_simp
  rfl

/-- The guarded inverse square root of the degrees. -/
theorem w2_dinv : W2 m ρ c (Proc.devRef .tc main_v17) = val_main_v13 (F := Ideal) (m ((c : Thread nD τ).loc main_arg1)) := by
  show after (hostOps0_1 (F := Ideal)) (W1 m ρ c) (Proc.devRef .tc main_v17) = _
  rw [where_of, w1_pos, w1_rsq, w1_zero]
  rfl

theorem w2_row : W2 m ρ c (Proc.devRef .tc main_v1) = val_main_v1 (F := Ideal) (m ((c : Thread nD τ).loc main_arg1)) := by
  have h := w1_row m ρ c
  show after (hostOps0_1 (F := Ideal)) (W1 m ρ c) (Proc.devRef .tc main_v1) = _
  generalize W1 m ρ c = E at h ⊢
  dsimp only [hostOps0_1]
  after_results_simp
  exact h
theorem w2_col : W2 m ρ c (Proc.devRef .tc main_v3) = val_main_v3 (F := Ideal) (m ((c : Thread nD τ).loc main_arg1)) := by
  have h := w1_col m ρ c
  show after (hostOps0_1 (F := Ideal)) (W1 m ρ c) (Proc.devRef .tc main_v3) = _
  generalize W1 m ρ c = E at h ⊢
  dsimp only [hostOps0_1]
  after_results_simp
  exact h
theorem w2_nrow : W2 m ρ c (Proc.devRef .tc main_v5) = val_main_v111 (F := Ideal) (m ((c : Thread nD τ).loc main_arg2)) := by
  have h := w1_nrow m ρ c
  show after (hostOps0_1 (F := Ideal)) (W1 m ρ c) (Proc.devRef .tc main_v5) = _
  generalize W1 m ρ c = E at h ⊢
  dsimp only [hostOps0_1]
  after_results_simp
  exact h
theorem w2_ncol : W2 m ρ c (Proc.devRef .tc main_v7) = val_main_v120 (F := Ideal) (m ((c : Thread nD τ).loc main_arg2)) := by
  have h := w1_ncol m ρ c
  show after (hostOps0_1 (F := Ideal)) (W1 m ρ c) (Proc.devRef .tc main_v7) = _
  generalize W1 m ρ c = E at h ⊢
  dsimp only [hostOps0_1]
  after_results_simp
  exact h
theorem w2_arg0 : W2 m ρ c (Proc.devRef .tc main_arg0) = (m ((c : Thread nD τ).loc main_arg0)) := by
  have h := w1_arg0 m ρ c
  show after (hostOps0_1 (F := Ideal)) (W1 m ρ c) (Proc.devRef .tc main_arg0) = _
  generalize W1 m ρ c = E at h ⊢
  dsimp only [hostOps0_1]
  after_results_simp
  exact h
theorem w2_arg3 : W2 m ρ c (Proc.devRef .tc main_arg3) = (m ((c : Thread nD τ).loc main_arg3)) := by
  have h := w1_arg3 m ρ c
  show after (hostOps0_1 (F := Ideal)) (W1 m ρ c) (Proc.devRef .tc main_arg3) = _
  generalize W1 m ρ c = E at h ⊢
  dsimp only [hostOps0_1]
  after_results_simp
  exact h
theorem w2_arg4 : W2 m ρ c (Proc.devRef .tc main_arg4) = (m ((c : Thread nD τ).loc main_arg4)) := by
  have h := w1_arg4 m ρ c
  show after (hostOps0_1 (F := Ideal)) (W1 m ρ c) (Proc.devRef .tc main_arg4) = _
  generalize W1 m ρ c = E at h ⊢
  dsimp only [hostOps0_1]
  after_results_simp
  exact h
theorem w2_arg5 : W2 m ρ c (Proc.devRef .tc main_arg5) = (m ((c : Thread nD τ).loc main_arg5)) := by
  have h := w1_arg5 m ρ c
  show after (hostOps0_1 (F := Ideal)) (W1 m ρ c) (Proc.devRef .tc main_arg5) = _
  generalize W1 m ρ c = E at h ⊢
  dsimp only [hostOps0_1]
  after_results_simp
  exact h
theorem w2_arg6 : W2 m ρ c (Proc.devRef .tc main_arg6) = (m ((c : Thread nD τ).loc main_arg6)) := by
  have h := w1_arg6 m ρ c
  show after (hostOps0_1 (F := Ideal)) (W1 m ρ c) (Proc.devRef .tc main_arg6) = _
  generalize W1 m ρ c = E at h ⊢
  dsimp only [hostOps0_1]
  after_results_simp
  exact h
theorem w2_arg7 : W2 m ρ c (Proc.devRef .tc main_arg7) = (m ((c : Thread nD τ).loc main_arg7)) := by
  have h := w1_arg7 m ρ c
  show after (hostOps0_1 (F := Ideal)) (W1 m ρ c) (Proc.devRef .tc main_arg7) = _
  generalize W1 m ρ c = E at h ⊢
  dsimp only [hostOps0_1]
  after_results_simp
  exact h
theorem w2_arg8 : W2 m ρ c (Proc.devRef .tc main_arg8) = (m ((c : Thread nD τ).loc main_arg8)) := by
  have h := w1_arg8 m ρ c
  show after (hostOps0_1 (F := Ideal)) (W1 m ρ c) (Proc.devRef .tc main_arg8) = _
  generalize W1 m ρ c = E at h ⊢
  dsimp only [hostOps0_1]
  after_results_simp
  exact h
theorem w2_arg9 : W2 m ρ c (Proc.devRef .tc main_arg9) = (m ((c : Thread nD τ).loc main_arg9)) := by
  have h := w1_arg9 m ρ c
  show after (hostOps0_1 (F := Ideal)) (W1 m ρ c) (Proc.devRef .tc main_arg9) = _
  generalize W1 m ρ c = E at h ⊢
  dsimp only [hostOps0_1]
  after_results_simp
  exact h
theorem w2_arg10 : W2 m ρ c (Proc.devRef .tc main_arg10) = (m ((c : Thread nD τ).loc main_arg10)) := by
  have h := w1_arg10 m ρ c
  show after (hostOps0_1 (F := Ideal)) (W1 m ρ c) (Proc.devRef .tc main_arg10) = _
  generalize W1 m ρ c = E at h ⊢
  dsimp only [hostOps0_1]
  after_results_simp
  exact h
theorem w2_arg11 : W2 m ρ c (Proc.devRef .tc main_arg11) = (m ((c : Thread nD τ).loc main_arg11)) := by
  have h := w1_arg11 m ρ c
  show after (hostOps0_1 (F := Ideal)) (W1 m ρ c) (Proc.devRef .tc main_arg11) = _
  generalize W1 m ρ c = E at h ⊢
  dsimp only [hostOps0_1]
  after_results_simp
  exact h
theorem w2_arg12 : W2 m ρ c (Proc.devRef .tc main_arg12) = (m ((c : Thread nD τ).loc main_arg12)) := by
  have h := w1_arg12 m ρ c
  show after (hostOps0_1 (F := Ideal)) (W1 m ρ c) (Proc.devRef .tc main_arg12) = _
  generalize W1 m ρ c = E at h ⊢
  dsimp only [hostOps0_1]
  after_results_simp
  exact h
theorem w2_arg13 : W2 m ρ c (Proc.devRef .tc main_arg13) = (m ((c : Thread nD τ).loc main_arg13)) := by
  have h := w1_arg13 m ρ c
  show after (hostOps0_1 (F := Ideal)) (W1 m ρ c) (Proc.devRef .tc main_arg13) = _
  generalize W1 m ρ c = E at h ⊢
  dsimp only [hostOps0_1]
  after_results_simp
  exact h
theorem w2_arg14 : W2 m ρ c (Proc.devRef .tc main_arg14) = (m ((c : Thread nD τ).loc main_arg14)) := by
  have h := w1_arg14 m ρ c
  show after (hostOps0_1 (F := Ideal)) (W1 m ρ c) (Proc.devRef .tc main_arg14) = _
  generalize W1 m ρ c = E at h ⊢
  dsimp only [hostOps0_1]
  after_results_simp
  exact h
theorem w2_arg15 : W2 m ρ c (Proc.devRef .tc main_arg15) = (m ((c : Thread nD τ).loc main_arg15)) := by
  have h := w1_arg15 m ρ c
  show after (hostOps0_1 (F := Ideal)) (W1 m ρ c) (Proc.devRef .tc main_arg15) = _
  generalize W1 m ρ c = E at h ⊢
  dsimp only [hostOps0_1]
  after_results_simp
  exact h

/-! ## The third stretch: the weights, the input features and the first aggregate -/

/-- The edge weights of the normalised Laplacian. -/
theorem w3_w : W3 m ρ c (Proc.devRef .tc main_v33) = val_main_v29 (F := Ideal) (m ((c : Thread nD τ).loc main_arg1)) := by
  have hd := w2_dinv m ρ c
  have hr := w2_row m ρ c
  have hc := w2_col m ρ c
  show after (hostOps0_2 (F := Ideal)) (W2 m ρ c) (Proc.devRef .tc main_v33) = _
  generalize W2 m ρ c = E at hd hr hc ⊢
  dsimp only [hostOps0_2]
  after_results_simp
  rw [hd, hr, hc]
  rfl

/-- The input features: a change of float format is the identity at the exact values. -/
theorem w3_x : W3 m ρ c (Proc.devRef .tc main_v34) = (m ((c : Thread nD τ).loc main_arg0)) := by
  have h0 := w2_arg0 m ρ c
  show after (hostOps0_2 (F := Ideal)) (W2 m ρ c) (Proc.devRef .tc main_v34) = _
  generalize W2 m ρ c = E at h0 ⊢
  dsimp only [hostOps0_2]
  after_results_simp
  rw [h0]
  rfl

/-- The first aggregate. -/
theorem w3_tx1 : W3 m ρ c (Proc.devRef .tc main_v48) = val_main_v42 (F := Ideal) (m ((c : Thread nD τ).loc main_arg0)) (m ((c : Thread nD τ).loc main_arg1)) := by
  have hd := w2_dinv m ρ c
  have hr := w2_row m ρ c
  have hc := w2_col m ρ c
  have h0 := w2_arg0 m ρ c
  show after (hostOps0_2 (F := Ideal)) (W2 m ρ c) (Proc.devRef .tc main_v48) = _
  generalize W2 m ρ c = E at hd hr hc h0 ⊢
  dsimp only [hostOps0_2]
  after_results_simp
  rw [hd, hr, hc, h0]
  rfl

theorem w3_row : W3 m ρ c (Proc.devRef .tc main_v1) = val_main_v1 (F := Ideal) (m ((c : Thread nD τ).loc main_arg1)) := by
  have h := w2_row m ρ c
  show after (hostOps0_2 (F := Ideal)) (W2 m ρ c) (Proc.devRef .tc main_v1) = _
  generalize W2 m ρ c = E at h ⊢
  dsimp only [hostOps0_2]
  after_results_simp
  exact h
theorem w3_col : W3 m ρ c (Proc.devRef .tc main_v3) = val_main_v3 (F := Ideal) (m ((c : Thread nD τ).loc main_arg1)) := by
  have h := w2_col m ρ c
  show after (hostOps0_2 (F := Ideal)) (W2 m ρ c) (Proc.devRef .tc main_v3) = _
  generalize W2 m ρ c = E at h ⊢
  dsimp only [hostOps0_2]
  after_results_simp
  exact h
theorem w3_nrow : W3 m ρ c (Proc.devRef .tc main_v5) = val_main_v111 (F := Ideal) (m ((c : Thread nD τ).loc main_arg2)) := by
  have h := w2_nrow m ρ c
  show after (hostOps0_2 (F := Ideal)) (W2 m ρ c) (Proc.devRef .tc main_v5) = _
  generalize W2 m ρ c = E at h ⊢
  dsimp only [hostOps0_2]
  after_results_simp
  exact h
theorem w3_ncol : W3 m ρ c (Proc.devRef .tc main_v7) = val_main_v120 (F := Ideal) (m ((c : Thread nD τ).loc main_arg2)) := by
  have h := w2_ncol m ρ c
  show after (hostOps0_2 (F := Ideal)) (W2 m ρ c) (Proc.devRef .tc main_v7) = _
  generalize W2 m ρ c = E at h ⊢
  dsimp only [hostOps0_2]
  after_results_simp
  exact h
theorem w3_arg3 : W3 m ρ c (Proc.devRef .tc main_arg3) = (m ((c : Thread nD τ).loc main_arg3)) := by
  have h := w2_arg3 m ρ c
  show after (hostOps0_2 (F := Ideal)) (W2 m ρ c) (Proc.devRef .tc main_arg3) = _
  generalize W2 m ρ c = E at h ⊢
  dsimp only [hostOps0_2]
  after_results_simp
  exact h
theorem w3_arg4 : W3 m ρ c (Proc.devRef .tc main_arg4) = (m ((c : Thread nD τ).loc main_arg4)) := by
  have h := w2_arg4 m ρ c
  show after (hostOps0_2 (F := Ideal)) (W2 m ρ c) (Proc.devRef .tc main_arg4) = _
  generalize W2 m ρ c = E at h ⊢
  dsimp only [hostOps0_2]
  after_results_simp
  exact h
theorem w3_arg5 : W3 m ρ c (Proc.devRef .tc main_arg5) = (m ((c : Thread nD τ).loc main_arg5)) := by
  have h := w2_arg5 m ρ c
  show after (hostOps0_2 (F := Ideal)) (W2 m ρ c) (Proc.devRef .tc main_arg5) = _
  generalize W2 m ρ c = E at h ⊢
  dsimp only [hostOps0_2]
  after_results_simp
  exact h
theorem w3_arg6 : W3 m ρ c (Proc.devRef .tc main_arg6) = (m ((c : Thread nD τ).loc main_arg6)) := by
  have h := w2_arg6 m ρ c
  show after (hostOps0_2 (F := Ideal)) (W2 m ρ c) (Proc.devRef .tc main_arg6) = _
  generalize W2 m ρ c = E at h ⊢
  dsimp only [hostOps0_2]
  after_results_simp
  exact h
theorem w3_arg7 : W3 m ρ c (Proc.devRef .tc main_arg7) = (m ((c : Thread nD τ).loc main_arg7)) := by
  have h := w2_arg7 m ρ c
  show after (hostOps0_2 (F := Ideal)) (W2 m ρ c) (Proc.devRef .tc main_arg7) = _
  generalize W2 m ρ c = E at h ⊢
  dsimp only [hostOps0_2]
  after_results_simp
  exact h
theorem w3_arg8 : W3 m ρ c (Proc.devRef .tc main_arg8) = (m ((c : Thread nD τ).loc main_arg8)) := by
  have h := w2_arg8 m ρ c
  show after (hostOps0_2 (F := Ideal)) (W2 m ρ c) (Proc.devRef .tc main_arg8) = _
  generalize W2 m ρ c = E at h ⊢
  dsimp only [hostOps0_2]
  after_results_simp
  exact h
theorem w3_arg9 : W3 m ρ c (Proc.devRef .tc main_arg9) = (m ((c : Thread nD τ).loc main_arg9)) := by
  have h := w2_arg9 m ρ c
  show after (hostOps0_2 (F := Ideal)) (W2 m ρ c) (Proc.devRef .tc main_arg9) = _
  generalize W2 m ρ c = E at h ⊢
  dsimp only [hostOps0_2]
  after_results_simp
  exact h
theorem w3_arg10 : W3 m ρ c (Proc.devRef .tc main_arg10) = (m ((c : Thread nD τ).loc main_arg10)) := by
  have h := w2_arg10 m ρ c
  show after (hostOps0_2 (F := Ideal)) (W2 m ρ c) (Proc.devRef .tc main_arg10) = _
  generalize W2 m ρ c = E at h ⊢
  dsimp only [hostOps0_2]
  after_results_simp
  exact h
theorem w3_arg11 : W3 m ρ c (Proc.devRef .tc main_arg11) = (m ((c : Thread nD τ).loc main_arg11)) := by
  have h := w2_arg11 m ρ c
  show after (hostOps0_2 (F := Ideal)) (W2 m ρ c) (Proc.devRef .tc main_arg11) = _
  generalize W2 m ρ c = E at h ⊢
  dsimp only [hostOps0_2]
  after_results_simp
  exact h
theorem w3_arg12 : W3 m ρ c (Proc.devRef .tc main_arg12) = (m ((c : Thread nD τ).loc main_arg12)) := by
  have h := w2_arg12 m ρ c
  show after (hostOps0_2 (F := Ideal)) (W2 m ρ c) (Proc.devRef .tc main_arg12) = _
  generalize W2 m ρ c = E at h ⊢
  dsimp only [hostOps0_2]
  after_results_simp
  exact h
theorem w3_arg13 : W3 m ρ c (Proc.devRef .tc main_arg13) = (m ((c : Thread nD τ).loc main_arg13)) := by
  have h := w2_arg13 m ρ c
  show after (hostOps0_2 (F := Ideal)) (W2 m ρ c) (Proc.devRef .tc main_arg13) = _
  generalize W2 m ρ c = E at h ⊢
  dsimp only [hostOps0_2]
  after_results_simp
  exact h
theorem w3_arg14 : W3 m ρ c (Proc.devRef .tc main_arg14) = (m ((c : Thread nD τ).loc main_arg14)) := by
  have h := w2_arg14 m ρ c
  show after (hostOps0_2 (F := Ideal)) (W2 m ρ c) (Proc.devRef .tc main_arg14) = _
  generalize W2 m ρ c = E at h ⊢
  dsimp only [hostOps0_2]
  after_results_simp
  exact h
theorem w3_arg15 : W3 m ρ c (Proc.devRef .tc main_arg15) = (m ((c : Thread nD τ).loc main_arg15)) := by
  have h := w2_arg15 m ρ c
  show after (hostOps0_2 (F := Ideal)) (W2 m ρ c) (Proc.devRef .tc main_arg15) = _
  generalize W2 m ρ c = E at h ⊢
  dsimp only [hostOps0_2]
  after_results_simp
  exact h

/-! ## The first region -/

/-- The first region's output: the reference's first layer. -/
theorem w4_h : W4 m ρ c (Proc.devRef .tc main_v49) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W4_arr m ρ c 5).trans ?_
  rw [Region0.final (V3 m ρ) c]
  show Cheb.reluLayer2 (W3 m ρ c (Proc.devRef .tc main_v34)) (W3 m ρ c (Proc.devRef .tc main_v48)) (W3 m ρ c (Proc.devRef .tc main_arg3))
      (W3 m ρ c (Proc.devRef .tc main_arg4)) (W3 m ρ c (Proc.devRef .tc main_arg5)) = _
  rw [w3_x, w3_tx1, w3_arg3, w3_arg4, w3_arg5, Cert.ReferenceIdeal.Layers.h_eq]

/-! The first region writes only its output: every other buffer leaves it as it entered. -/
theorem w4_row : W4 m ρ c (Proc.devRef .tc main_v1) = val_main_v1 (F := Ideal) (m ((c : Thread nD τ).loc main_arg1)) :=
  (W4_of_ne m ρ c main_v1 (by decide)).trans (w3_row m ρ c)
theorem w4_col : W4 m ρ c (Proc.devRef .tc main_v3) = val_main_v3 (F := Ideal) (m ((c : Thread nD τ).loc main_arg1)) :=
  (W4_of_ne m ρ c main_v3 (by decide)).trans (w3_col m ρ c)
theorem w4_nrow : W4 m ρ c (Proc.devRef .tc main_v5) = val_main_v111 (F := Ideal) (m ((c : Thread nD τ).loc main_arg2)) :=
  (W4_of_ne m ρ c main_v5 (by decide)).trans (w3_nrow m ρ c)
theorem w4_ncol : W4 m ρ c (Proc.devRef .tc main_v7) = val_main_v120 (F := Ideal) (m ((c : Thread nD τ).loc main_arg2)) :=
  (W4_of_ne m ρ c main_v7 (by decide)).trans (w3_ncol m ρ c)
theorem w4_w : W4 m ρ c (Proc.devRef .tc main_v33) = val_main_v29 (F := Ideal) (m ((c : Thread nD τ).loc main_arg1)) :=
  (W4_of_ne m ρ c main_v33 (by decide)).trans (w3_w m ρ c)

/-- The input features are the first region's window 0: an input window's array leaves the region as it entered. -/
theorem w4_x : W4 m ρ c (Proc.devRef .tc main_v34) = (m ((c : Thread nD τ).loc main_arg0)) :=
  ((W4_arr m ρ c 0).trans (((dat0 (V3 m ρ) c).arrAt_in 0 rfl _).trans (A_eq0 (V3 m ρ) c 0))).trans (w3_x m ρ c)
theorem w4_arg6 : W4 m ρ c (Proc.devRef .tc main_arg6) = (m ((c : Thread nD τ).loc main_arg6)) :=
  (W4_of_ne m ρ c main_arg6 (by decide)).trans (w3_arg6 m ρ c)
theorem w4_arg7 : W4 m ρ c (Proc.devRef .tc main_arg7) = (m ((c : Thread nD τ).loc main_arg7)) :=
  (W4_of_ne m ρ c main_arg7 (by decide)).trans (w3_arg7 m ρ c)
theorem w4_arg8 : W4 m ρ c (Proc.devRef .tc main_arg8) = (m ((c : Thread nD τ).loc main_arg8)) :=
  (W4_of_ne m ρ c main_arg8 (by decide)).trans (w3_arg8 m ρ c)
theorem w4_arg9 : W4 m ρ c (Proc.devRef .tc main_arg9) = (m ((c : Thread nD τ).loc main_arg9)) :=
  (W4_of_ne m ρ c main_arg9 (by decide)).trans (w3_arg9 m ρ c)
theorem w4_arg10 : W4 m ρ c (Proc.devRef .tc main_arg10) = (m ((c : Thread nD τ).loc main_arg10)) :=
  (W4_of_ne m ρ c main_arg10 (by decide)).trans (w3_arg10 m ρ c)
theorem w4_arg11 : W4 m ρ c (Proc.devRef .tc main_arg11) = (m ((c : Thread nD τ).loc main_arg11)) :=
  (W4_of_ne m ρ c main_arg11 (by decide)).trans (w3_arg11 m ρ c)
theorem w4_arg12 : W4 m ρ c (Proc.devRef .tc main_arg12) = (m ((c : Thread nD τ).loc main_arg12)) :=
  (W4_of_ne m ρ c main_arg12 (by decide)).trans (w3_arg12 m ρ c)
theorem w4_arg13 : W4 m ρ c (Proc.devRef .tc main_arg13) = (m ((c : Thread nD τ).loc main_arg13)) :=
  (W4_of_ne m ρ c main_arg13 (by decide)).trans (w3_arg13 m ρ c)
theorem w4_arg14 : W4 m ρ c (Proc.devRef .tc main_arg14) = (m ((c : Thread nD τ).loc main_arg14)) :=
  (W4_of_ne m ρ c main_arg14 (by decide)).trans (w3_arg14 m ρ c)
theorem w4_arg15 : W4 m ρ c (Proc.devRef .tc main_arg15) = (m ((c : Thread nD τ).loc main_arg15)) :=
  (W4_of_ne m ρ c main_arg15 (by decide)).trans (w3_arg15 m ρ c)

end Cert.KernelIdeal.Bridge

end
-- ==== Proof.Region1.lean ====
/-
  The second kernel region: its two output arrays after the region, each as one function of the arrays the region
  finds. Point t of the 25 works on rows 2000 t … 2000 t + 1999 of the hidden features h, of their aggregate tx and
  of the input features x, with every weight and bias whole at every point, and writes the same rows of both
  outputs. Both outputs share x1 = max (h · W2a + tx · W2b + b2) 0; the first adds max (x · L1 + c1) 0 and the second
  max (x · L2 + c2) 0. A row of an output depends only on the same row of h, tx and x, so the blocks are restrictions
  of one whole-array function, and they tile it.
-/
import proofs.«123812_j1503238553647_2_alg».proof.Proof.Gen.KernelIdeal.Frame
import proofs.«123812_j1503238553647_2_alg».proof.Proof.LibChebLayer

set_option maxRecDepth 16384

noncomputable section

open scoped BigOperators

namespace Cert.KernelIdeal.Region1

open Cert.KernelIdeal Cert.KernelIdeal.Gen
open Idealize.ShloMosaic Idealize.ShloMosaic.TcCoe Idealize.SL.Sem
open Idealize.ShloMosaic.ValueIdx Idealize.ShloMosaic.LayoutReads
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a <;> rfl

/-- The shared second layer, activated, at row r and feature j of a block. -/
theorem pay3_apply (v0 : FVec Ideal S2000x300 .bf16) (v2 : FVec Ideal S2000x300 .f32) (v5 v7 : FVec Ideal S300x100 .f32)
    (v12 : FVec Ideal S100 .f32) (r : Fin 2000) (j : Fin 100) :
    k1_pay3 (F := Ideal) v0 v2 v5 v7 v12 (ix2 r j) = Cheb.relu (Cheb.lin2 v0 v2 v5 v7 v12 r j) := by
  unfold k1_pay3
  simp only [shapeCast_self]
  rw [maximumf_apply, broadcast_apply,
    Cheb.body2_apply dot_S2000x300_S300x100_S2000x100_1_0_0_1_n_n rfl rfl rfl rfl rfl rfl]
  rfl

/-- The second projection of the input features before its activation. -/
theorem pay5_apply (v18 : FVec Ideal S2000x64 .bf16) (v22 : FVec Ideal S64x100 .f32) (v30 : FVec Ideal S100 .f32)
    (r : Fin 2000) (j : Fin 100) :
    k1_pay5 (F := Ideal) v18 v22 v30 (ix2 r j) = Cheb.lin1 v18 v22 v30 r j := by
  unfold k1_pay5 k1_pay4
  simp only [shapeCast_self]
  rw [Cheb.body1_apply dot_S2000x64_S64x100_S2000x100_1_0_0_1_n_n rfl rfl rfl rfl rfl rfl]
  rfl

/-- The first projection of the input features, activated. -/
theorem pay6_apply (v18 : FVec Ideal S2000x64 .bf16) (v20 : FVec Ideal S64x100 .f32) (v25 : FVec Ideal S100 .f32)
    (r : Fin 2000) (j : Fin 100) :
    k1_pay6 (F := Ideal) v18 v20 v25 (ix2 r j) = Cheb.relu (Cheb.lin1 v18 v20 v25 r j) := by
  unfold k1_pay6 k1_pay4
  simp only [shapeCast_self]
  rw [maximumf_apply, broadcast_apply,
    Cheb.body1_apply dot_S2000x64_S64x100_S2000x100_1_0_0_1_n_n rfl rfl rfl rfl rfl rfl]
  rfl

/-- The first output's stored value. -/
theorem out10_apply (x0 : FVec Ideal S2000x300 .bf16) (x1 : FVec Ideal S2000x300 .f32) (x2 : FVec Ideal S2000x64 .bf16)
    (x3 x4 : FVec Ideal S300x100 .f32) (x5 : FVec Ideal S100 .f32) (x6 : FVec Ideal S64x100 .f32) (x7 : FVec Ideal S100 .f32)
    (r : Fin 2000) (j : Fin 100) :
    k1_pay1 (F := Ideal) (k1_pay3 x0 x1 x3 x4 x5) (k1_pay6 x2 x6 x7) (ix2 r j)
      = Cheb.relu (Cheb.lin2 x0 x1 x3 x4 x5 r j) + Cheb.relu (Cheb.lin1 x2 x6 x7 r j) := by
  unfold k1_pay1
  rw [addf_apply, pay3_apply, pay6_apply]

/-- The second output's stored value. -/
theorem out11_apply (x0 : FVec Ideal S2000x300 .bf16) (x1 : FVec Ideal S2000x300 .f32) (x2 : FVec Ideal S2000x64 .bf16)
    (x3 x4 : FVec Ideal S300x100 .f32) (x5 : FVec Ideal S100 .f32) (x8 : FVec Ideal S64x100 .f32) (x9 : FVec Ideal S100 .f32)
    (r : Fin 2000) (j : Fin 100) :
    k1_pay2 (F := Ideal) (k1_pay3 x0 x1 x3 x4 x5) (k1_pay5 x2 x8 x9) (ix2 r j)
      = Cheb.relu (Cheb.lin2 x0 x1 x3 x4 x5 r j) + Cheb.relu (Cheb.lin1 x2 x8 x9 r j) := by
  unfold k1_pay2
  rw [addf_apply, pay3_apply, maximumf_apply, broadcast_apply, pay5_apply]
  rfl

/-! The printed index maps over the grid: the row-block windows sit at block row t, the others at the origin. -/
theorem idx_row0 : ∀ t : Fin cfg1.N, win1_0.index t (0 : Fin 2) = t.val ∧ win1_0.index t (1 : Fin 2) = 0 :=
  (by decide +kernel : ∀ t : Fin grid1.N, _)
theorem idx_row1 : ∀ t : Fin cfg1.N, win1_1.index t (0 : Fin 2) = t.val ∧ win1_1.index t (1 : Fin 2) = 0 :=
  (by decide +kernel : ∀ t : Fin grid1.N, _)
theorem idx_row2 : ∀ t : Fin cfg1.N, win1_2.index t (0 : Fin 2) = t.val ∧ win1_2.index t (1 : Fin 2) = 0 :=
  (by decide +kernel : ∀ t : Fin grid1.N, _)
theorem idx_row10 : ∀ t : Fin cfg1.N, win1_10.index t (0 : Fin 2) = t.val ∧ win1_10.index t (1 : Fin 2) = 0 :=
  (by decide +kernel : ∀ t : Fin grid1.N, _)
theorem idx_row11 : ∀ t : Fin cfg1.N, win1_11.index t (0 : Fin 2) = t.val ∧ win1_11.index t (1 : Fin 2) = 0 :=
  (by decide +kernel : ∀ t : Fin grid1.N, _)
theorem idx_mat3 : ∀ t : Fin cfg1.N, win1_3.index t (0 : Fin 2) = 0 ∧ win1_3.index t (1 : Fin 2) = 0 :=
  (by decide +kernel : ∀ t : Fin grid1.N, _)
theorem idx_mat4 : ∀ t : Fin cfg1.N, win1_4.index t (0 : Fin 2) = 0 ∧ win1_4.index t (1 : Fin 2) = 0 :=
  (by decide +kernel : ∀ t : Fin grid1.N, _)
theorem idx_mat6 : ∀ t : Fin cfg1.N, win1_6.index t (0 : Fin 2) = 0 ∧ win1_6.index t (1 : Fin 2) = 0 :=
  (by decide +kernel : ∀ t : Fin grid1.N, _)
theorem idx_mat8 : ∀ t : Fin cfg1.N, win1_8.index t (0 : Fin 2) = 0 ∧ win1_8.index t (1 : Fin 2) = 0 :=
  (by decide +kernel : ∀ t : Fin grid1.N, _)
theorem idx_vec5 : ∀ t : Fin cfg1.N, win1_5.index t (0 : Fin 1) = 0 :=
  (by decide +kernel : ∀ t : Fin grid1.N, _)
theorem idx_vec7 : ∀ t : Fin cfg1.N, win1_7.index t (0 : Fin 1) = 0 :=
  (by decide +kernel : ∀ t : Fin grid1.N, _)
theorem idx_vec9 : ∀ t : Fin cfg1.N, win1_9.index t (0 : Fin 1) = 0 :=
  (by decide +kernel : ∀ t : Fin grid1.N, _)

theorem t_lt (t : Fin cfg1.N) : t.val < 25 := lt_of_lt_of_eq t.isLt N_1

/-- Row r of point t's block is row 2000 t + r of the array. -/
def rowOf (t : Fin cfg1.N) (r : Fin 2000) : Fin 50000 := ⟨t.val * 2000 + r.val, by have := t_lt t; have := r.isLt; omega⟩

variable (V : (c : Dev nD) → (b : Ref sig .tc) → Buf (Elt Ideal) ((c : Thread nD τ).loc b))

/-! The blocks of the ten input windows at point t, read at coordinates. -/

theorem blk0 (c : Dev nD) (t : Fin cfg1.N) (r : Fin 2000) (k : Fin 300) :
    iblk1 V c 0 t (ix2 r k) = V c main_v49 (ix2 (rowOf t r) k) := by
  obtain ⟨e0, e1⟩ := idx_row0 t
  show V c main_v49 (((cfg1.win 0).blk t).view.emb (ix2 r k)) = _
  refine congrArg _ (funext fun a => Fin.ext ?_)
  match a with
  | ⟨0, _⟩ => show win1_0.index t (0 : Fin 2) * 2000 + 1 * r.val = t.val * 2000 + r.val; omega
  | ⟨1, _⟩ => show win1_0.index t (1 : Fin 2) * 300 + 1 * k.val = k.val; omega

theorem blk1 (c : Dev nD) (t : Fin cfg1.N) (r : Fin 2000) (k : Fin 300) :
    iblk1 V c 1 t (ix2 r k) = V c main_v63 (ix2 (rowOf t r) k) := by
  obtain ⟨e0, e1⟩ := idx_row1 t
  show V c main_v63 (((cfg1.win 1).blk t).view.emb (ix2 r k)) = _
  refine congrArg _ (funext fun a => Fin.ext ?_)
  match a with
  | ⟨0, _⟩ => show win1_1.index t (0 : Fin 2) * 2000 + 1 * r.val = t.val * 2000 + r.val; omega
  | ⟨1, _⟩ => show win1_1.index t (1 : Fin 2) * 300 + 1 * k.val = k.val; omega

theorem blk2 (c : Dev nD) (t : Fin cfg1.N) (r : Fin 2000) (k : Fin 64) :
    iblk1 V c 2 t (ix2 r k) = V c main_v34 (ix2 (rowOf t r) k) := by
  obtain ⟨e0, e1⟩ := idx_row2 t
  show V c main_v34 (((cfg1.win 2).blk t).view.emb (ix2 r k)) = _
  refine congrArg _ (funext fun a => Fin.ext ?_)
  match a with
  | ⟨0, _⟩ => show win1_2.index t (0 : Fin 2) * 2000 + 1 * r.val = t.val * 2000 + r.val; omega
  | ⟨1, _⟩ => show win1_2.index t (1 : Fin 2) * 64 + 1 * k.val = k.val; omega

theorem blk3 (c : Dev nD) (t : Fin cfg1.N) (k : Fin 300) (j : Fin 100) :
    iblk1 V c 3 t (ix2 k j) = V c main_arg6 (ix2 k j) := by
  obtain ⟨e0, e1⟩ := idx_mat3 t
  show V c main_arg6 (((cfg1.win 3).blk t).view.emb (ix2 k j)) = _
  refine congrArg _ (funext fun a => Fin.ext ?_)
  match a with
  | ⟨0, _⟩ => show win1_3.index t (0 : Fin 2) * 300 + 1 * k.val = k.val; omega
  | ⟨1, _⟩ => show win1_3.index t (1 : Fin 2) * 100 + 1 * j.val = j.val; omega

theorem blk4 (c : Dev nD) (t : Fin cfg1.N) (k : Fin 300) (j : Fin 100) :
    iblk1 V c 4 t (ix2 k j) = V c main_arg7 (ix2 k j) := by
  obtain ⟨e0, e1⟩ := idx_mat4 t
  show V c main_arg7 (((cfg1.win 4).blk t).view.emb (ix2 k j)) = _
  refine congrArg _ (funext fun a => Fin.ext ?_)
  match a with
  | ⟨0, _⟩ => show win1_4.index t (0 : Fin 2) * 300 + 1 * k.val = k.val; omega
  | ⟨1, _⟩ => show win1_4.index t (1 : Fin 2) * 100 + 1 * j.val = j.val; omega

theorem blk5 (c : Dev nD) (t : Fin cfg1.N) (j : Fin 100) :
    iblk1 V c 5 t (ix1 j) = V c main_arg8 (ix1 j) := by
  have e0 := idx_vec5 t
  show V c main_arg8 (((cfg1.win 5).blk t).view.emb (ix1 j)) = _
  refine congrArg _ (funext fun a => Fin.ext ?_)
  match a with
  | ⟨0, _⟩ => show win1_5.index t (0 : Fin 1) * 100 + 1 * j.val = j.val; omega

theorem blk6 (c : Dev nD) (t : Fin cfg1.N) (k : Fin 64) (j : Fin 100) :
    iblk1 V c 6 t (ix2 k j) = V c main_arg12 (ix2 k j) := by
  obtain ⟨e0, e1⟩ := idx_mat6 t
  show V c main_arg12 (((cfg1.win 6).blk t).view.emb (ix2 k j)) = _
  refine congrArg _ (funext fun a => Fin.ext ?_)
  match a with
  | ⟨0, _⟩ => show win1_6.index t (0 : Fin 2) * 64 + 1 * k.val = k.val; omega
  | ⟨1, _⟩ => show win1_6.index t (1 : Fin 2) * 100 + 1 * j.val = j.val; omega

theorem blk7 (c : Dev nD) (t : Fin cfg1.N) (j : Fin 100) :
    iblk1 V c 7 t (ix1 j) = V c main_arg13 (ix1 j) := by
  have e0 := idx_vec7 t
  show V c main_arg13 (((cfg1.win 7).blk t).view.emb (ix1 j)) = _
  refine congrArg _ (funext fun a => Fin.ext ?_)
  match a with
  | ⟨0, _⟩ => show win1_7.index t (0 : Fin 1) * 100 + 1 * j.val = j.val; omega

theorem blk8 (c : Dev nD) (t : Fin cfg1.N) (k : Fin 64) (j : Fin 100) :
    iblk1 V c 8 t (ix2 k j) = V c main_arg14 (ix2 k j) := by
  obtain ⟨e0, e1⟩ := idx_mat8 t
  show V c main_arg14 (((cfg1.win 8).blk t).view.emb (ix2 k j)) = _
  refine congrArg _ (funext fun a => Fin.ext ?_)
  match a with
  | ⟨0, _⟩ => show win1_8.index t (0 : Fin 2) * 64 + 1 * k.val = k.val; omega
  | ⟨1, _⟩ => show win1_8.index t (1 : Fin 2) * 100 + 1 * j.val = j.val; omega

theorem blk9 (c : Dev nD) (t : Fin cfg1.N) (j : Fin 100) :
    iblk1 V c 9 t (ix1 j) = V c main_arg15 (ix1 j) := by
  have e0 := idx_vec9 t
  show V c main_arg15 (((cfg1.win 9).blk t).view.emb (ix1 j)) = _
  refine congrArg _ (funext fun a => Fin.ext ?_)
  match a with
  | ⟨0, _⟩ => show win1_9.index t (0 : Fin 1) * 100 + 1 * j.val = j.val; omega

/-- Where row r, feature j of point t's block of output window 10 lands in the array. -/
theorem emb10 (t : Fin cfg1.N) (r : Fin 2000) (j : Fin 100) :
    ((cfg1.win 10).blk t).view.emb (ix2 r j) = ix2 (rowOf t r) j := by
  obtain ⟨e0, e1⟩ := idx_row10 t
  refine funext fun a => Fin.ext ?_
  match a with
  | ⟨0, _⟩ => show win1_10.index t (0 : Fin 2) * 2000 + 1 * r.val = t.val * 2000 + r.val; omega
  | ⟨1, _⟩ => show win1_10.index t (1 : Fin 2) * 100 + 1 * j.val = j.val; omega

/-- An index of the array is in point t's block iff each coordinate is in the block's range on its axis. -/
theorem mem_blk10 (t : Fin cfg1.N) (i : S50000x100.Idx) :
    i ∈ ((cfg1.win 10).blk t).view.set ↔ ∀ a : Fin 2, win1_10.index t a * S2000x100.size a ≤ (i a).val ∧ (i a).val < win1_10.index t a * S2000x100.size a + S2000x100.size a := by
  show i ∈ ((View.whole main_v64_0).slice (win1_10.rect t)).set ↔ _
  rw [View.set_slice_whole, Rect.mem_set_unit]
  exact Iff.rfl

/-- Every index of the output array is in the block of the point that holds its row. -/
theorem cover10 (i : S50000x100.Idx) : ∃ t : Fin cfg1.N, (cfg1.win 10).flush t = true ∧ i ∈ ((cfg1.win 10).blk t).view.set := by
  have hi0 : (i 0).val < 50000 := (i 0).isLt
  have hi1 : (i 1).val < 100 := (i 1).isLt
  have hN : (i 0).val / 2000 < cfg1.N := lt_of_lt_of_eq (by omega : (i 0).val / 2000 < 25) N_1.symm
  refine ⟨⟨(i 0).val / 2000, hN⟩, flush1_10 _, ?_⟩
  obtain ⟨e0, e1⟩ := idx_row10 ⟨(i 0).val / 2000, hN⟩
  rw [mem_blk10]
  intro a
  match a with
  | ⟨0, _⟩ =>
    show win1_10.index ⟨(i 0).val / 2000, hN⟩ (0 : Fin 2) * 2000 ≤ (i 0).val ∧ (i 0).val < win1_10.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_10.index ⟨(i 0).val / 2000, hN⟩ (1 : Fin 2) * 100 ≤ (i 1).val ∧ (i 1).val < win1_10.index ⟨(i 0).val / 2000, hN⟩ (1 : Fin 2) * 100 + 100
    rw [e1]; omega

/-- Where row r, feature j of point t's block of output window 11 lands in the array. -/
theorem emb11 (t : Fin cfg1.N) (r : Fin 2000) (j : Fin 100) :
    ((cfg1.win 11).blk t).view.emb (ix2 r j) = ix2 (rowOf t r) j := by
  obtain ⟨e0, e1⟩ := idx_row11 t
  refine funext fun a => Fin.ext ?_
  match a with
  | ⟨0, _⟩ => show win1_11.index t (0 : Fin 2) * 2000 + 1 * r.val = t.val * 2000 + r.val; omega
  | ⟨1, _⟩ => show win1_11.index t (1 : Fin 2) * 100 + 1 * j.val = j.val; omega

/-- An index of the array is in point t's block iff each coordinate is in the block's range on its axis. -/
theorem mem_blk11 (t : Fin cfg1.N) (i : S50000x100.Idx) :
    i ∈ ((cfg1.win 11).blk t).view.set ↔ ∀ a : Fin 2, win1_11.index t a * S2000x100.size a ≤ (i a).val ∧ (i a).val < win1_11.index t a * S2000x100.size a + S2000x100.size a := by
  show i ∈ ((View.whole main_v64_1).slice (win1_11.rect t)).set ↔ _
  rw [View.set_slice_whole, Rect.mem_set_unit]
  exact Iff.rfl

/-- Every index of the output array is in the block of the point that holds its row. -/
theorem cover11 (i : S50000x100.Idx) : ∃ t : Fin cfg1.N, (cfg1.win 11).flush t = true ∧ i ∈ ((cfg1.win 11).blk t).view.set := by
  have hi0 : (i 0).val < 50000 := (i 0).isLt
  have hi1 : (i 1).val < 100 := (i 1).isLt
  have hN : (i 0).val / 2000 < cfg1.N := lt_of_lt_of_eq (by omega : (i 0).val / 2000 < 25) N_1.symm
  refine ⟨⟨(i 0).val / 2000, hN⟩, flush1_11 _, ?_⟩
  obtain ⟨e0, e1⟩ := idx_row11 ⟨(i 0).val / 2000, hN⟩
  rw [mem_blk11]
  intro a
  match a with
  | ⟨0, _⟩ =>
    show win1_11.index ⟨(i 0).val / 2000, hN⟩ (0 : Fin 2) * 2000 ≤ (i 0).val ∧ (i 0).val < win1_11.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_11.index ⟨(i 0).val / 2000, hN⟩ (1 : Fin 2) * 100 ≤ (i 1).val ∧ (i 1).val < win1_11.index ⟨(i 0).val / 2000, hN⟩ (1 : Fin 2) * 100 + 100
    rw [e1]; omega

/-- What point t writes back to the first output is block t of the whole-array function. -/
theorem flushed10_eq (c : Dev nD) (t : Fin cfg1.N) :
    (dat1 V c).flushed 10 t = ((cfg1.win 10).blk t).view.read (Elt Ideal)
      (Cheb.mixed (V c main_v49) (V c main_v63) (V c main_arg6) (V c main_arg7) (V c main_arg8) (V c main_v34) (V c main_arg12) (V c main_arg13)) := by
  show (cfg1.win 10).cut (grid1.coords t) ((dat1 V c).after 10 t) = _
  rw [after1_10]
  unfold out1_10
  rw [View.canon_unit_zero hz2]
  simp only [View.ld_unit_zero (S := S2000x300) hz2, View.ld_unit_zero (S := S2000x64) hz2, View.ld_unit_zero (S := S300x100) hz2,
    View.ld_unit_zero (S := S64x100) hz2, View.ld_unit_zero (S := S100) hz1]
  funext y
  obtain ⟨r, j, rfl⟩ : ∃ (r : Fin 2000) (j : Fin 100), y = ix2 r j := ⟨y 0, y 1, eq_ix2 y⟩
  show k1_pay1 (F := Ideal) (k1_pay3 (iblk1 V c 0 t) (iblk1 V c 1 t) (iblk1 V c 3 t) (iblk1 V c 4 t) (iblk1 V c 5 t))
      (k1_pay6 (iblk1 V c 2 t) (iblk1 V c 6 t) (iblk1 V c 7 t)) (ix2 r j)
    = Cheb.mixed (V c main_v49) (V c main_v63) (V c main_arg6) (V c main_arg7) (V c main_arg8) (V c main_v34) (V c main_arg12) (V c main_arg13)
        (((cfg1.win 10).blk t).view.emb (ix2 r j))
  refine (out10_apply (iblk1 V c 0 t) (iblk1 V c 1 t) (iblk1 V c 2 t) (iblk1 V c 3 t) (iblk1 V c 4 t) (iblk1 V c 5 t) (iblk1 V c 6 t) (iblk1 V c 7 t) r j).trans ?_
  rw [emb10 t r j]
  show Cheb.relu (Cheb.lin2 (iblk1 V c 0 t) (iblk1 V c 1 t) (iblk1 V c 3 t) (iblk1 V c 4 t) (iblk1 V c 5 t) r j)
      + Cheb.relu (Cheb.lin1 (iblk1 V c 2 t) (iblk1 V c 6 t) (iblk1 V c 7 t) r j)
    = Cheb.relu (Cheb.lin2 (V c main_v49) (V c main_v63) (V c main_arg6) (V c main_arg7) (V c main_arg8) (rowOf t r) j)
      + Cheb.relu (Cheb.lin1 (V c main_v34) (V c main_arg12) (V c main_arg13) (rowOf t r) j)
  unfold Cheb.lin2 Cheb.lin1
  simp only [blk0 V c t, blk1 V c t, blk2 V c t, blk3 V c t, blk4 V c t, blk5 V c t, blk6 V c t, blk7 V c t]

/-- What point t writes back to the second output is block t of the whole-array function. -/
theorem flushed11_eq (c : Dev nD) (t : Fin cfg1.N) :
    (dat1 V c).flushed 11 t = ((cfg1.win 11).blk t).view.read (Elt Ideal)
      (Cheb.mixed (V c main_v49) (V c main_v63) (V c main_arg6) (V c main_arg7) (V c main_arg8) (V c main_v34) (V c main_arg14) (V c main_arg15)) := by
  show (cfg1.win 11).cut (grid1.coords t) ((dat1 V c).after 11 t) = _
  rw [after1_11]
  unfold out1_11
  rw [View.canon_unit_zero hz2]
  simp only [View.ld_unit_zero (S := S2000x300) hz2, View.ld_unit_zero (S := S2000x64) hz2, View.ld_unit_zero (S := S300x100) hz2,
    View.ld_unit_zero (S := S64x100) hz2, View.ld_unit_zero (S := S100) hz1]
  funext y
  obtain ⟨r, j, rfl⟩ : ∃ (r : Fin 2000) (j : Fin 100), y = ix2 r j := ⟨y 0, y 1, eq_ix2 y⟩
  show k1_pay2 (F := Ideal) (k1_pay3 (iblk1 V c 0 t) (iblk1 V c 1 t) (iblk1 V c 3 t) (iblk1 V c 4 t) (iblk1 V c 5 t))
      (k1_pay5 (iblk1 V c 2 t) (iblk1 V c 8 t) (iblk1 V c 9 t)) (ix2 r j)
    = Cheb.mixed (V c main_v49) (V c main_v63) (V c main_arg6) (V c main_arg7) (V c main_arg8) (V c main_v34) (V c main_arg14) (V c main_arg15)
        (((cfg1.win 11).blk t).view.emb (ix2 r j))
  refine (out11_apply (iblk1 V c 0 t) (iblk1 V c 1 t) (iblk1 V c 2 t) (iblk1 V c 3 t) (iblk1 V c 4 t) (iblk1 V c 5 t) (iblk1 V c 8 t) (iblk1 V c 9 t) r j).trans ?_
  rw [emb11 t r j]
  show Cheb.relu (Cheb.lin2 (iblk1 V c 0 t) (iblk1 V c 1 t) (iblk1 V c 3 t) (iblk1 V c 4 t) (iblk1 V c 5 t) r j)
      + Cheb.relu (Cheb.lin1 (iblk1 V c 2 t) (iblk1 V c 8 t) (iblk1 V c 9 t) r j)
    = Cheb.relu (Cheb.lin2 (V c main_v49) (V c main_v63) (V c main_arg6) (V c main_arg7) (V c main_arg8) (rowOf t r) j)
      + Cheb.relu (Cheb.lin1 (V c main_v34) (V c main_arg14) (V c main_arg15) (rowOf t r) j)
  unfold Cheb.lin2 Cheb.lin1
  simp only [blk0 V c t, blk1 V c t, blk2 V c t, blk3 V c t, blk4 V c t, blk5 V c t, blk8 V c t, blk9 V c t]

/-- The first output array after the region. -/
theorem final10 (c : Dev nD) : (dat1 V c).arrAt 10 cfg1.N
    = Cheb.mixed (V c main_v49) (V c main_v63) (V c main_arg6) (V c main_arg7) (V c main_arg8) (V c main_v34) (V c main_arg12) (V c main_arg13) :=
  (dat1 V c).arrAt_eq_of_cover 10 _ (fun t _ => flushed10_eq V c t) cover10

/-- The second output array after the region. -/
theorem final11 (c : Dev nD) : (dat1 V c).arrAt 11 cfg1.N
    = Cheb.mixed (V c main_v49) (V c main_v63) (V c main_arg6) (V c main_arg7) (V c main_arg8) (V c main_v34) (V c main_arg14) (V c main_arg15) :=
  (dat1 V c).arrAt_eq_of_cover 11 _ (fun t _ => flushed11_eq V c t) cover11

end Cert.KernelIdeal.Region1

end
-- ==== Proof.Bridge5.lean ====
/-
  The idealized kernel program from the first region's exit to the second region's exit, read against the
  reference's stages. The host computes the second aggregate tx2 = segment_sum (w * h[col], row) from the first
  layer h (gathered in the narrow float format and widened again: the identity at the exact values); the second
  region then leaves xm and z, the reference's mixed outputs.
-/
import proofs.«123812_j1503238553647_2_alg».proof.Proof.Bridge3
import proofs.«123812_j1503238553647_2_alg».proof.Proof.Region1

set_option maxRecDepth 16384

noncomputable section

namespace Cert.KernelIdeal.Bridge

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! The host stretch between the regions writes none of these buffers. -/
theorem w5_h : W5 m ρ c (Proc.devRef .tc main_v49) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  dsimp only [W5, hostOps1]
  after_results_simp
  exact w4_h m ρ c
theorem w5_row : W5 m ρ c (Proc.devRef .tc main_v1) = val_main_v1 (F := Ideal) (m ((c : Thread nD τ).loc main_arg1)) := by
  dsimp only [W5, hostOps1]
  after_results_simp
  exact w4_row m ρ c
theorem w5_col : W5 m ρ c (Proc.devRef .tc main_v3) = val_main_v3 (F := Ideal) (m ((c : Thread nD τ).loc main_arg1)) := by
  dsimp only [W5, hostOps1]
  after_results_simp
  exact w4_col m ρ c
theorem w5_nrow : W5 m ρ c (Proc.devRef .tc main_v5) = val_main_v111 (F := Ideal) (m ((c : Thread nD τ).loc main_arg2)) := by
  dsimp only [W5, hostOps1]
  after_results_simp
  exact w4_nrow m ρ c
theorem w5_ncol : W5 m ρ c (Proc.devRef .tc main_v7) = val_main_v120 (F := Ideal) (m ((c : Thread nD τ).loc main_arg2)) := by
  dsimp only [W5, hostOps1]
  after_results_simp
  exact w4_ncol m ρ c
theorem w5_w : W5 m ρ c (Proc.devRef .tc main_v33) = val_main_v29 (F := Ideal) (m ((c : Thread nD τ).loc main_arg1)) := by
  dsimp only [W5, hostOps1]
  after_results_simp
  exact w4_w m ρ c
theorem w5_x : W5 m ρ c (Proc.devRef .tc main_v34) = (m ((c : Thread nD τ).loc main_arg0)) := by
  dsimp only [W5, hostOps1]
  after_results_simp
  exact w4_x m ρ c
theorem w5_arg6 : W5 m ρ c (Proc.devRef .tc main_arg6) = (m ((c : Thread nD τ).loc main_arg6)) := by
  dsimp only [W5, hostOps1]
  after_results_simp
  exact w4_arg6 m ρ c
theorem w5_arg7 : W5 m ρ c (Proc.devRef .tc main_arg7) = (m ((c : Thread nD τ).loc main_arg7)) := by
  dsimp only [W5, hostOps1]
  after_results_simp
  exact w4_arg7 m ρ c
theorem w5_arg8 : W5 m ρ c (Proc.devRef .tc main_arg8) = (m ((c : Thread nD τ).loc main_arg8)) := by
  dsimp only [W5, hostOps1]
  after_results_simp
  exact w4_arg8 m ρ c
theorem w5_arg9 : W5 m ρ c (Proc.devRef .tc main_arg9) = (m ((c : Thread nD τ).loc main_arg9)) := by
  dsimp only [W5, hostOps1]
  after_results_simp
  exact w4_arg9 m ρ c
theorem w5_arg10 : W5 m ρ c (Proc.devRef .tc main_arg10) = (m ((c : Thread nD τ).loc main_arg10)) := by
  dsimp only [W5, hostOps1]
  after_results_simp
  exact w4_arg10 m ρ c
theorem w5_arg11 : W5 m ρ c (Proc.devRef .tc main_arg11) = (m ((c : Thread nD τ).loc main_arg11)) := by
  dsimp only [W5, hostOps1]
  after_results_simp
  exact w4_arg11 m ρ c
theorem w5_arg12 : W5 m ρ c (Proc.devRef .tc main_arg12) = (m ((c : Thread nD τ).loc main_arg12)) := by
  dsimp only [W5, hostOps1]
  after_results_simp
  exact w4_arg12 m ρ c
theorem w5_arg13 : W5 m ρ c (Proc.devRef .tc main_arg13) = (m ((c : Thread nD τ).loc main_arg13)) := by
  dsimp only [W5, hostOps1]
  after_results_simp
  exact w4_arg13 m ρ c
theorem w5_arg14 : W5 m ρ c (Proc.devRef .tc main_arg14) = (m ((c : Thread nD τ).loc main_arg14)) := by
  dsimp only [W5, hostOps1]
  after_results_simp
  exact w4_arg14 m ρ c
theorem w5_arg15 : W5 m ρ c (Proc.devRef .tc main_arg15) = (m ((c : Thread nD τ).loc main_arg15)) := by
  dsimp only [W5, hostOps1]
  after_results_simp
  exact w4_arg15 m ρ c

/-- The second aggregate. -/
theorem w5_tx2 : W5 m ρ c (Proc.devRef .tc main_v63) = val_main_v62 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  dsimp only [W5, hostOps1]
  after_results_simp
  rw [w4_h, w4_w, w4_row, w4_col]
  rfl

/-- The second region's first output: the reference's xm. -/
theorem w6_xm : W6 m ρ c (Proc.devRef .tc main_v64_0) = val_main_v75 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) := by
  refine (W6_arr m ρ c 10).trans ?_
  rw [Region1.final10 (V5 m ρ) c]
  show Cheb.mixed (W5 m ρ c (Proc.devRef .tc main_v49)) (W5 m ρ c (Proc.devRef .tc main_v63)) (W5 m ρ c (Proc.devRef .tc main_arg6))
      (W5 m ρ c (Proc.devRef .tc main_arg7)) (W5 m ρ c (Proc.devRef .tc main_arg8)) (W5 m ρ c (Proc.devRef .tc main_v34))
      (W5 m ρ c (Proc.devRef .tc main_arg12)) (W5 m ρ c (Proc.devRef .tc main_arg13)) = _
  rw [w5_h, w5_tx2, w5_arg6, w5_arg7, w5_arg8, w5_x, w5_arg12, w5_arg13, Cert.ReferenceIdeal.Layers.xm_eq]

/-- The second region's second output: the reference's z. -/
theorem w6_z : W6 m ρ c (Proc.devRef .tc main_v64_1) = val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg14)) (m ((c : Thread nD τ).loc main_arg15)) := by
  refine (W6_arr m ρ c 11).trans ?_
  rw [Region1.final11 (V5 m ρ) c]
  show Cheb.mixed (W5 m ρ c (Proc.devRef .tc main_v49)) (W5 m ρ c (Proc.devRef .tc main_v63)) (W5 m ρ c (Proc.devRef .tc main_arg6))
      (W5 m ρ c (Proc.devRef .tc main_arg7)) (W5 m ρ c (Proc.devRef .tc main_arg8)) (W5 m ρ c (Proc.devRef .tc main_v34))
      (W5 m ρ c (Proc.devRef .tc main_arg14)) (W5 m ρ c (Proc.devRef .tc main_arg15)) = _
  rw [w5_h, w5_tx2, w5_arg6, w5_arg7, w5_arg8, w5_x, w5_arg14, w5_arg15, Cert.ReferenceIdeal.Layers.z_eq]

/-! The second region writes only its two outputs: every other buffer leaves it as it entered. -/
theorem w6_row : W6 m ρ c (Proc.devRef .tc main_v1) = val_main_v1 (F := Ideal) (m ((c : Thread nD τ).loc main_arg1)) :=
  (W6_of_ne m ρ c main_v1 (by decide)).trans (w5_row m ρ c)
theorem w6_col : W6 m ρ c (Proc.devRef .tc main_v3) = val_main_v3 (F := Ideal) (m ((c : Thread nD τ).loc main_arg1)) :=
  (W6_of_ne m ρ c main_v3 (by decide)).trans (w5_col m ρ c)
theorem w6_nrow : W6 m ρ c (Proc.devRef .tc main_v5) = val_main_v111 (F := Ideal) (m ((c : Thread nD τ).loc main_arg2)) :=
  (W6_of_ne m ρ c main_v5 (by decide)).trans (w5_nrow m ρ c)
theorem w6_ncol : W6 m ρ c (Proc.devRef .tc main_v7) = val_main_v120 (F := Ideal) (m ((c : Thread nD τ).loc main_arg2)) :=
  (W6_of_ne m ρ c main_v7 (by decide)).trans (w5_ncol m ρ c)
theorem w6_w : W6 m ρ c (Proc.devRef .tc main_v33) = val_main_v29 (F := Ideal) (m ((c : Thread nD τ).loc main_arg1)) :=
  (W6_of_ne m ρ c main_v33 (by decide)).trans (w5_w m ρ c)
theorem w6_arg9 : W6 m ρ c (Proc.devRef .tc main_arg9) = (m ((c : Thread nD τ).loc main_arg9)) :=
  (W6_of_ne m ρ c main_arg9 (by decide)).trans (w5_arg9 m ρ c)
theorem w6_arg10 : W6 m ρ c (Proc.devRef .tc main_arg10) = (m ((c : Thread nD τ).loc main_arg10)) :=
  (W6_of_ne m ρ c main_arg10 (by decide)).trans (w5_arg10 m ρ c)
theorem w6_arg11 : W6 m ρ c (Proc.devRef .tc main_arg11) = (m ((c : Thread nD τ).loc main_arg11)) :=
  (W6_of_ne m ρ c main_arg11 (by decide)).trans (w5_arg11 m ρ c)

end Cert.KernelIdeal.Bridge

end
-- ==== Proof.Region2.lean ====
/-
  The third kernel region: its output array after the region as one function of the arrays the region finds.
  Point t of the 25 works on rows 2000 t … 2000 t + 1999 of the mixed features xm and of their aggregate tx, with
  the weights and the bias whole at every point, and writes the same rows of the one-column output:
  (xm · W3a + tx · W3b + b3) (i, 0), no activation. The blocks are restrictions of one whole-array function and they
  tile it.
-/
import proofs.«123812_j1503238553647_2_alg».proof.Proof.Gen.KernelIdeal.Frame
import proofs.«123812_j1503238553647_2_alg».proof.Proof.LibChebLayer

set_option maxRecDepth 16384

noncomputable section

open scoped BigOperators

namespace Cert.KernelIdeal.Region2

open Cert.KernelIdeal Cert.KernelIdeal.Gen
open Idealize.ShloMosaic Idealize.ShloMosaic.TcCoe Idealize.SL.Sem
open Idealize.ShloMosaic.ValueIdx Idealize.ShloMosaic.LayoutReads
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a <;> rfl

/-- The body's stored value at row r of its block (the one output feature j). -/
theorem pay_apply (v0 : FVec Ideal S2000x100 .bf16) (v2 : FVec Ideal S2000x100 .f32) (v5 v7 : FVec Ideal S100x1 .f32)
    (v12 : FVec Ideal S1 .f32) (r : Fin 2000) (j : Fin 1) :
    k2_pay1 (F := Ideal) v0 v2 v5 v7 v12 (ix2 r j) = Cheb.lin2 v0 v2 v5 v7 v12 r j := by
  unfold k2_pay1
  simp only [shapeCast_self]
  rw [Cheb.body2_apply dot_S2000x100_S100x1_S2000x1_1_0_0_1_n_n rfl rfl rfl rfl rfl rfl]
  rfl

/-! The printed index maps over the grid: the row-block windows sit at block row t, the others at the origin. -/
theorem idx_row0 : ∀ t : Fin cfg2.N, win2_0.index t (0 : Fin 2) = t.val ∧ win2_0.index t (1 : Fin 2) = 0 :=
  (by decide +kernel : ∀ t : Fin grid2.N, _)
theorem idx_row1 : ∀ t : Fin cfg2.N, win2_1.index t (0 : Fin 2) = t.val ∧ win2_1.index t (1 : Fin 2) = 0 :=
  (by decide +kernel : ∀ t : Fin grid2.N, _)
theorem idx_row5 : ∀ t : Fin cfg2.N, win2_5.index t (0 : Fin 2) = t.val ∧ win2_5.index t (1 : Fin 2) = 0 :=
  (by decide +kernel : ∀ t : Fin grid2.N, _)
theorem idx_mat2 : ∀ t : Fin cfg2.N, win2_2.index t (0 : Fin 2) = 0 ∧ win2_2.index t (1 : Fin 2) = 0 :=
  (by decide +kernel : ∀ t : Fin grid2.N, _)
theorem idx_mat3 : ∀ t : Fin cfg2.N, win2_3.index t (0 : Fin 2) = 0 ∧ win2_3.index t (1 : Fin 2) = 0 :=
  (by decide +kernel : ∀ t : Fin grid2.N, _)
theorem idx_vec4 : ∀ t : Fin cfg2.N, win2_4.index t (0 : Fin 1) = 0 :=
  (by decide +kernel : ∀ t : Fin grid2.N, _)

theorem t_lt (t : Fin cfg2.N) : t.val < 25 := lt_of_lt_of_eq t.isLt N_2

/-- Row r of point t's block is row 2000 t + r of the array. -/
def rowOf (t : Fin cfg2.N) (r : Fin 2000) : Fin 50000 := ⟨t.val * 2000 + r.val, by have := t_lt t; have := r.isLt; omega⟩

variable (V : (c : Dev nD) → (b : Ref sig .tc) → Buf (Elt Ideal) ((c : Thread nD τ).loc b))

/-! The blocks of the five input windows at point t, read at coordinates. -/

theorem blk0 (c : Dev nD) (t : Fin cfg2.N) (r : Fin 2000) (k : Fin 100) :
    iblk2 V c 0 t (ix2 r k) = V c main_v129 (ix2 (rowOf t r) k) := by
  obtain ⟨e0, e1⟩ := idx_row0 t
  show V c main_v129 (((cfg2.win 0).blk t).view.emb (ix2 r k)) = _
  refine congrArg _ (funext fun a => Fin.ext ?_)
  match a with
  | ⟨0, _⟩ => show win2_0.index t (0 : Fin 2) * 2000 + 1 * r.val = t.val * 2000 + r.val; omega
  | ⟨1, _⟩ => show win2_0.index t (1 : Fin 2) * 100 + 1 * k.val = k.val; omega

theorem blk1 (c : Dev nD) (t : Fin cfg2.N) (r : Fin 2000) (k : Fin 100) :
    iblk2 V c 1 t (ix2 r k) = V c main_v143 (ix2 (rowOf t r) k) := by
  obtain ⟨e0, e1⟩ := idx_row1 t
  show V c main_v143 (((cfg2.win 1).blk t).view.emb (ix2 r k)) = _
  refine congrArg _ (funext fun a => Fin.ext ?_)
  match a with
  | ⟨0, _⟩ => show win2_1.index t (0 : Fin 2) * 2000 + 1 * r.val = t.val * 2000 + r.val; omega
  | ⟨1, _⟩ => show win2_1.index t (1 : Fin 2) * 100 + 1 * k.val = k.val; omega

theorem blk2 (c : Dev nD) (t : Fin cfg2.N) (k : Fin 100) (j : Fin 1) :
    iblk2 V c 2 t (ix2 k j) = V c main_arg9 (ix2 k j) := by
  obtain ⟨e0, e1⟩ := idx_mat2 t
  show V c main_arg9 (((cfg2.win 2).blk t).view.emb (ix2 k j)) = _
  refine congrArg _ (funext fun a => Fin.ext ?_)
  match a with
  | ⟨0, _⟩ => show win2_2.index t (0 : Fin 2) * 100 + 1 * k.val = k.val; omega
  | ⟨1, _⟩ => show win2_2.index t (1 : Fin 2) * 1 + 1 * j.val = j.val; omega

theorem blk3 (c : Dev nD) (t : Fin cfg2.N) (k : Fin 100) (j : Fin 1) :
    iblk2 V c 3 t (ix2 k j) = V c main_arg10 (ix2 k j) := by
  obtain ⟨e0, e1⟩ := idx_mat3 t
  show V c main_arg10 (((cfg2.win 3).blk t).view.emb (ix2 k j)) = _
  refine congrArg _ (funext fun a => Fin.ext ?_)
  match a with
  | ⟨0, _⟩ => show win2_3.index t (0 : Fin 2) * 100 + 1 * k.val = k.val; omega
  | ⟨1, _⟩ => show win2_3.index t (1 : Fin 2) * 1 + 1 * j.val = j.val; omega

theorem blk4 (c : Dev nD) (t : Fin cfg2.N) (j : Fin 1) :
    iblk2 V c 4 t (ix1 j) = V c main_arg11 (ix1 j) := by
  have e0 := idx_vec4 t
  show V c main_arg11 (((cfg2.win 4).blk t).view.emb (ix1 j)) = _
  refine congrArg _ (funext fun a => Fin.ext ?_)
  match a with
  | ⟨0, _⟩ => show win2_4.index t (0 : Fin 1) * 1 + 1 * j.val = j.val; omega

/-- Where row r, feature j of point t's block of output window 5 lands in the array. -/
theorem emb5 (t : Fin cfg2.N) (r : Fin 2000) (j : Fin 1) :
    ((cfg2.win 5).blk t).view.emb (ix2 r j) = ix2 (rowOf t r) j := by
  obtain ⟨e0, e1⟩ := idx_row5 t
  refine funext fun a => Fin.ext ?_
  match a with
  | ⟨0, _⟩ => show win2_5.index t (0 : Fin 2) * 2000 + 1 * r.val = t.val * 2000 + r.val; omega
  | ⟨1, _⟩ => show win2_5.index t (1 : Fin 2) * 1 + 1 * j.val = j.val; omega

/-- An index of the array is in point t's block iff each coordinate is in the block's range on its axis. -/
theorem mem_blk5 (t : Fin cfg2.N) (i : S50000x1.Idx) :
    i ∈ ((cfg2.win 5).blk t).view.set ↔ ∀ a : Fin 2, win2_5.index t a * S2000x1.size a ≤ (i a).val ∧ (i a).val < win2_5.index t a * S2000x1.size a + S2000x1.size a := by
  show i ∈ ((View.whole main_v144).slice (win2_5.rect t)).set ↔ _
  rw [View.set_slice_whole, Rect.mem_set_unit]
  exact Iff.rfl

/-- Every index of the output array is in the block of the point that holds its row. -/
theorem cover5 (i : S50000x1.Idx) : ∃ t : Fin cfg2.N, (cfg2.win 5).flush t = true ∧ i ∈ ((cfg2.win 5).blk t).view.set := by
  have hi0 : (i 0).val < 50000 := (i 0).isLt
  have hi1 : (i 1).val < 1 := (i 1).isLt
  have hN : (i 0).val / 2000 < cfg2.N := lt_of_lt_of_eq (by omega : (i 0).val / 2000 < 25) N_2.symm
  refine ⟨⟨(i 0).val / 2000, hN⟩, flush2_5 _, ?_⟩
  obtain ⟨e0, e1⟩ := idx_row5 ⟨(i 0).val / 2000, hN⟩
  rw [mem_blk5]
  intro a
  match a with
  | ⟨0, _⟩ =>
    show win2_5.index ⟨(i 0).val / 2000, hN⟩ (0 : Fin 2) * 2000 ≤ (i 0).val ∧ (i 0).val < win2_5.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, hN⟩ (1 : Fin 2) * 1 ≤ (i 1).val ∧ (i 1).val < win2_5.index ⟨(i 0).val / 2000, hN⟩ (1 : Fin 2) * 1 + 1
    rw [e1]; omega

/-- What point t writes back is block t of the whole-array function. -/
theorem flushed_eq (c : Dev nD) (t : Fin cfg2.N) :
    (dat2 V c).flushed 5 t = ((cfg2.win 5).blk t).view.read (Elt Ideal)
      (Cheb.layer2 (V c main_v129) (V c main_v143) (V c main_arg9) (V c main_arg10) (V c main_arg11)) := by
  show (cfg2.win 5).cut (grid2.coords t) ((dat2 V c).after 5 t) = _
  rw [after2_5]
  unfold out2_5
  rw [View.canon_unit_zero hz2]
  simp only [View.ld_unit_zero (S := S2000x100) hz2, View.ld_unit_zero (S := S100x1) hz2, View.ld_unit_zero (S := S1) hz1]
  funext y
  obtain ⟨r, j, rfl⟩ : ∃ (r : Fin 2000) (j : Fin 1), y = ix2 r j := ⟨y 0, y 1, eq_ix2 y⟩
  show k2_pay1 (F := Ideal) (iblk2 V c 0 t) (iblk2 V c 1 t) (iblk2 V c 2 t) (iblk2 V c 3 t) (iblk2 V c 4 t) (ix2 r j)
    = Cheb.layer2 (V c main_v129) (V c main_v143) (V c main_arg9) (V c main_arg10) (V c main_arg11) (((cfg2.win 5).blk t).view.emb (ix2 r j))
  refine (pay_apply (iblk2 V c 0 t) (iblk2 V c 1 t) (iblk2 V c 2 t) (iblk2 V c 3 t) (iblk2 V c 4 t) r j).trans ?_
  rw [emb5 t r j]
  show Cheb.lin2 (iblk2 V c 0 t) (iblk2 V c 1 t) (iblk2 V c 2 t) (iblk2 V c 3 t) (iblk2 V c 4 t) r j
    = Cheb.lin2 (V c main_v129) (V c main_v143) (V c main_arg9) (V c main_arg10) (V c main_arg11) (rowOf t r) j
  unfold Cheb.lin2
  simp only [blk0 V c t, blk1 V c t, blk2 V c t, blk3 V c t, blk4 V c t]

/-- The output array after the region. -/
theorem final (c : Dev nD) : (dat2 V c).arrAt 5 cfg2.N
    = Cheb.layer2 (V c main_v129) (V c main_v143) (V c main_arg9) (V c main_arg10) (V c main_arg11) :=
  (dat2 V c).arrAt_eq_of_cover 5 _ (fun t _ => flushed_eq V c t) cover5

end Cert.KernelIdeal.Region2

end
-- ==== Proof.Bridge7.lean ====
/-
  The idealized kernel program from the second region's exit to its return, read against the reference's stages.
  The host computes the loss from z (the scores of the edges and of the negative edges: row-wise dot products of
  gathered rows of z, a logistic, a logarithm, a mean), the narrow copy of xm and the third aggregate
  tx3 = segment_sum (w * xm[col], row); the third region then leaves xm · W3a + tx3 · W3b + b3, the reference's
  node output. The loss is a host scalar that the third region does not touch.
-/
import proofs.«123812_j1503238553647_2_alg».proof.Proof.Bridge5
import proofs.«123812_j1503238553647_2_alg».proof.Proof.Region2

set_option maxRecDepth 16384

noncomputable section

namespace Cert.KernelIdeal.Bridge

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! The last host stretch writes none of the arguments. -/
set_option maxHeartbeats 4000000 in
theorem w7_arg9 : W7 m ρ c (Proc.devRef .tc main_arg9) = (m ((c : Thread nD τ).loc main_arg9)) := by
  dsimp only [W7, hostOps2]
  after_results_simp
  exact w6_arg9 m ρ c
set_option maxHeartbeats 4000000 in
theorem w7_arg10 : W7 m ρ c (Proc.devRef .tc main_arg10) = (m ((c : Thread nD τ).loc main_arg10)) := by
  dsimp only [W7, hostOps2]
  after_results_simp
  exact w6_arg10 m ρ c
set_option maxHeartbeats 4000000 in
theorem w7_arg11 : W7 m ρ c (Proc.devRef .tc main_arg11) = (m ((c : Thread nD τ).loc main_arg11)) := by
  dsimp only [W7, hostOps2]
  after_results_simp
  exact w6_arg11 m ρ c

set_option maxHeartbeats 4000000 in
/-- The loss. -/
theorem w7_loss : W7 m ρ c (Proc.devRef .tc main_v128) = val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg14)) (m ((c : Thread nD τ).loc main_arg15)) := by
  dsimp only [W7, hostOps2]
  after_results_simp
  rw [w6_z, w6_row, w6_col, w6_nrow, w6_ncol]
  rfl

set_option maxHeartbeats 4000000 in
/-- The narrow copy of xm is xm. -/
theorem w7_xm : W7 m ρ c (Proc.devRef .tc main_v129) = val_main_v75 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) := by
  dsimp only [W7, hostOps2]
  after_results_simp
  rw [w6_xm]
  rfl

set_option maxHeartbeats 4000000 in
/-- The third aggregate. -/
theorem w7_tx3 : W7 m ρ c (Proc.devRef .tc main_v143) = val_main_v157 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) := by
  dsimp only [W7, hostOps2]
  after_results_simp
  rw [w6_xm, w6_w, w6_row, w6_col]
  rfl

/-- The third region's output: the reference's node output. -/
theorem w8_out : W8 m ρ c (Proc.devRef .tc main_v144) = val_main_v163 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W8_arr m ρ c 5).trans ?_
  rw [Region2.final (V7 m ρ) c]
  show Cheb.layer2 (W7 m ρ c (Proc.devRef .tc main_v129)) (W7 m ρ c (Proc.devRef .tc main_v143)) (W7 m ρ c (Proc.devRef .tc main_arg9))
      (W7 m ρ c (Proc.devRef .tc main_arg10)) (W7 m ρ c (Proc.devRef .tc main_arg11)) = _
  rw [w7_xm, w7_tx3, w7_arg9, w7_arg10, w7_arg11, Cert.ReferenceIdeal.Layers.out_eq]

/-- The loss is not one of the third region's arrays. -/
theorem w8_loss : W8 m ρ c (Proc.devRef .tc main_v128) = val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg14)) (m ((c : Thread nD τ).loc main_arg15)) :=
  (W8_of_ne m ρ c main_v128 (by decide)).trans (w7_loss m ρ c)

end Cert.KernelIdeal.Bridge

end
-- ==== Proof.lean ====
/-
  A three-layer Chebyshev graph network with an edge-score loss: the kernel program against the plain reference.

  Both programs compute, from the node features x, an edge list and a list of negative edges:
    the edge weights w = -dinv[row] * dinv[col] of the normalised Laplacian (dinv the guarded inverse square root
    of the degrees), and, with agg f = segment_sum (w * f[col], row),
      h  = max (x · W1a + agg x · W1b + b1) 0,
      x1 = max (h · W2a + agg h · W2b + b2) 0,   xm = x1 + max (x · L1 + c1) 0,   z = x1 + max (x · L2 + c2) 0,
      the loss from the scores sum_j z[row, j] z[col, j] of the edges and of the negative edges,
      out = xm · W3a + agg xm · W3b + b3,
  and return out, the loss and two arguments unchanged.
  The kernel program computes the three dense stages in three kernel regions, each over 25 blocks of 2000 rows
  (two matrix products into zero accumulators, the bias as a broadcast row, the activation), carries some arrays in
  a narrow float format, and does every gather and segment sum on the host; the reference computes every stage on
  the host with whole-array dot_generals. At the exact values a change of float format is the identity and a
  matrix product is the plain sum over the contracted feature on both sides, so each region's output array is the
  reference's stage of the same operands (a row of the output depends only on the same row of the inputs, and the
  row blocks tile the array), and every host stretch is the reference's own sequence of operations. No law of the
  extended reals beyond reading both sides as the same sums is used, and the precondition is not opened.

  The modules: LibChebLayer (the layer at an index, in the kernel body's form and in the host's), Region0 / Region1 /
  Region2 (each region's output arrays as one function of the arrays it finds), RefLayers (the reference's dense
  stages are those functions), KernelRun (the kernel program's run with its results named), Bridge3 / Bridge5 /
  Bridge7 (the kernel program's buffers, boundary by boundary, are the reference's stages).
-/
import proofs.«123812_j1503238553647_2_alg».proof.Defs
import proofs.«123812_j1503238553647_2_alg».proof.Proof.Gen.Kernel
import proofs.«123812_j1503238553647_2_alg».proof.Proof.Gen.Kernel.Skeleton
import proofs.«123812_j1503238553647_2_alg».proof.Proof.Gen.Kernel.Launch
import proofs.«123812_j1503238553647_2_alg».proof.Proof.Gen.Kernel.Points
import proofs.«123812_j1503238553647_2_alg».proof.Proof.Gen.Kernel.Frame
import proofs.«123812_j1503238553647_2_alg».proof.Proof.Gen.KernelIdeal
import proofs.«123812_j1503238553647_2_alg».proof.Proof.Gen.KernelIdeal.Skeleton
import proofs.«123812_j1503238553647_2_alg».proof.Proof.Gen.KernelIdeal.Launch
import proofs.«123812_j1503238553647_2_alg».proof.Proof.Gen.KernelIdeal.Points
import proofs.«123812_j1503238553647_2_alg».proof.Proof.Gen.KernelIdeal.Frame
import proofs.«123812_j1503238553647_2_alg».proof.Proof.Gen.ReferenceIdeal
import proofs.«123812_j1503238553647_2_alg».proof.Proof.RefReadP
import proofs.«123812_j1503238553647_2_alg».proof.Proof.KernelRun
import proofs.«123812_j1503238553647_2_alg».proof.Proof.Bridge7
import proofs.«123812_j1503238553647_2_alg».proof.Proof.Gen.Pre_finite_inputs
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-- The two idealized programs, from memories that agree on the arguments, end with the same node output and the
    same loss: the reference's last stages of the arguments. -/
theorem algebraic : Cert.algebraic_KernelIdeal_ReferenceIdeal := by
  intro m ρ m' ρ' _ hagree
  refine ⟨fun c => Cert.ReferenceIdeal.ReadP.val_main_v163 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.ReadP.val_main_v144 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => (m ((c.tc : Thread Cert.KernelIdeal.nD Cert.KernelIdeal.τ).loc Cert.KernelIdeal.main_arg16)), fun c => (m ((c.tc : Thread Cert.KernelIdeal.nD Cert.KernelIdeal.τ).loc Cert.KernelIdeal.main_arg17)), ?_, ?_⟩
  · refine (θ_run Cert.KernelIdeal.defs _ _).mono (fun r h c => ?_) (Cert.KernelIdeal.RunValue.run (F := Ideal) m ρ)
    obtain ⟨h0, h1, g0, g1, g2, g3, g4, g5, g6, g7, g8, g9, g10, g11, g12, g13, g14, g15, g16, g17⟩ := h c
    exact ⟨h0.trans (Cert.KernelIdeal.Bridge.w8_out m ρ c), h1.trans (Cert.KernelIdeal.Bridge.w8_loss m ρ c), g16, g17,
      g0, g1, g2, g3, g4, g5, g6, g7, g8, g9, g10, g11, g12, g13, g14, g15, g16, g17⟩
  · refine (θ_run Cert.ReferenceIdeal.defs _ _).mono (fun r h c => ?_) (Cert.ReferenceIdeal.ValueP.run (F := Ideal) m' ρ')
    obtain ⟨e0, e1, e2, e3, e4, e5, e6, e7, e8, e9, e10, e11, e12, e13, e14, e15, e16, e17⟩ := hagree c
    obtain ⟨h0, h1, h16, h17, hargs⟩ := h c
    refine ⟨h0.trans ?_, h1.trans ?_, h16.trans e16, h17.trans e17, hargs⟩
    · rw [Cert.ReferenceIdeal.ReadP.val_main_v163_eq, e0, e1, e3, e4, e5, e6, e7, e8, e9, e10, e11, e12, e13]
    · rw [Cert.ReferenceIdeal.ReadP.val_main_v144_eq, e0, e1, e2, e3, e4, e5, e6, e7, e8, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
